-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x420x420 : Shape := ⟨4, ![8, 16, 420, 420]⟩
abbrev S176400 : Shape := ⟨1, ![176400]⟩
abbrev S_ : Shape := ⟨0, ![]⟩

class Facts : Prop where
  bcast_S_S8x16x420x420 : S_.BroadcastsInDim S8x16x420x420 (![] : Fin 0 → Fin S8x16x420x420.rank)
  reducesTo_S8x16x420x420_S_d0_1_2_3 : S8x16x420x420.ReducesTo [0, 1, 2, 3] S_
  h_S_ : 0 < S_.numel

variable [Facts]

def fn {F : FTy → Type} [FloatOps F] (main_arg0 : FVec F S8x16x420x420 .f32) (main_arg1 : IVec S176400 32) : IVec S_ 1 :=
  let main_v0 : FVec F S8x16x420x420 .f32 := Host.absf main_arg0
  let main_cst : FVec F S_ .f32 := constant S_ .f32 0x7F800000#32
  let main_v1 : FVec F S8x16x420x420 .f32 := broadcastInDim S8x16x420x420 ![] bcast_S_S8x16x420x420 main_cst
  let main_v2 : IVec S8x16x420x420 1 := cmpf .olt main_v0 main_v1
  let main_c : IVec S_ 1 := constantI S_ 1 1#1
  let main_v3 : IVec S_ 1 := (fun x v => Host.reduce IntOp.andi x v reducesTo_S8x16x420x420_S_d0_1_2_3 h_S_) main_v2 main_c
  main_v3
-- ==== Kernel.lean ====
abbrev S8x16x420x420 : Shape := ⟨4, ![8, 16, 420, 420]⟩
abbrev S176400 : Shape := ⟨1, ![176400]⟩
abbrev S128x176400 : Shape := ⟨2, ![128, 176400]⟩
abbrev S128x176128 : Shape := ⟨2, ![128, 176128]⟩
abbrev S176128 : Shape := ⟨1, ![176128]⟩
abbrev S176128x1 : Shape := ⟨2, ![176128, 1]⟩
abbrev S128x10240 : Shape := ⟨2, ![128, 10240]⟩
abbrev S128x512 : Shape := ⟨2, ![128, 512]⟩
abbrev S512x1 : Shape := ⟨2, ![512, 1]⟩
abbrev S128x5120 : Shape := ⟨2, ![128, 5120]⟩
abbrev S1x5120 : Shape := ⟨2, ![1, 5120]⟩
abbrev S512x5120 : Shape := ⟨2, ![512, 5120]⟩
abbrev S128x10000 : Shape := ⟨2, ![128, 10000]⟩
abbrev S128x272 : Shape := ⟨2, ![128, 272]⟩
abbrev S272 : Shape := ⟨1, ![272]⟩
abbrev S272x128 : Shape := ⟨2, ![272, 128]⟩
abbrev S_ : Shape := ⟨0, ![]⟩
abbrev S10000x128 : Shape := ⟨2, ![10000, 128]⟩
abbrev S272x1 : Shape := ⟨2, ![272, 1]⟩
abbrev S10000 : Shape := ⟨1, ![10000]⟩
abbrev S176400x1 : Shape := ⟨2, ![176400, 1]⟩
abbrev S1x10000 : Shape := ⟨2, ![1, 10000]⟩
abbrev S8x16x10000 : Shape := ⟨3, ![8, 16, 10000]⟩

abbrev nBuf : Space → Nat
  | .hbm => 30
  | .vmem => 6
  | .smem => 0
  | _ => 0

abbrev bufTy : (tb : Table) → Fin (tcTables nBuf tb) → BufTy
  | .hbm, ⟨0, _⟩ => ⟨S8x16x420x420, .f32⟩
  | .hbm, ⟨1, _⟩ => ⟨S176400, .i32⟩
  | .hbm, ⟨2, _⟩ => ⟨S128x176400, .f32⟩
  | .hbm, ⟨3, _⟩ => ⟨S128x176128, .f32⟩
  | .hbm, ⟨4, _⟩ => ⟨S176128, .i32⟩
  | .hbm, ⟨5, _⟩ => ⟨S176128x1, .i32⟩
  | .hbm, ⟨6, _⟩ => ⟨S128x10240, .f32⟩
  | .hbm, ⟨7, _⟩ => ⟨S128x10000, .f32⟩
  | .hbm, ⟨8, _⟩ => ⟨S128x272, .f32⟩
  | .hbm, ⟨9, _⟩ => ⟨S272, .i32⟩
  | .hbm, ⟨10, _⟩ => ⟨S272x128, .f32⟩
  | .hbm, ⟨11, _⟩ => ⟨S_, .f32⟩
  | .hbm, ⟨12, _⟩ => ⟨S10000x128, .f32⟩
  | .hbm, ⟨13, _⟩ => ⟨S272x1, .i32⟩
  | .hbm, ⟨14, _⟩ => ⟨S10000x128, .f32⟩
  | .hbm, ⟨15, _⟩ => ⟨S128x10000, .f32⟩
  | .hbm, ⟨16, _⟩ => ⟨S128x10000, .f32⟩
  | .hbm, ⟨17, _⟩ => ⟨S_, .f32⟩
  | .hbm, ⟨18, _⟩ => ⟨S176400, .f32⟩
  | .hbm, ⟨19, _⟩ => ⟨S_, .f32⟩
  | .hbm, ⟨20, _⟩ => ⟨S10000, .f32⟩
  | .hbm, ⟨21, _⟩ => ⟨S176400x1, .i32⟩
  | .hbm, ⟨22, _⟩ => ⟨S10000, .f32⟩
  | .hbm, ⟨23, _⟩ => ⟨S_, .f32⟩
  | .hbm, ⟨24, _⟩ => ⟨S10000, .f32⟩
  | .hbm, ⟨25, _⟩ => ⟨S10000, .f32⟩
  | .hbm, ⟨26, _⟩ => ⟨S1x10000, .f32⟩
  | .hbm, ⟨27, _⟩ => ⟨S128x10000, .f32⟩
  | .hbm, ⟨28, _⟩ => ⟨S128x10000, .f32⟩
  | .hbm, ⟨29, _⟩ => ⟨S8x16x10000, .f32⟩
  | .local _ .vmem, ⟨0, _⟩ => ⟨S128x512, .f32⟩
  | .local _ .vmem, ⟨1, _⟩ => ⟨S128x512, .f32⟩
  | .local _ .vmem, ⟨2, _⟩ => ⟨S512x1, .i32⟩
  | .local _ .vmem, ⟨3, _⟩ => ⟨S512x1, .i32⟩
  | .local _ .vmem, ⟨4, _⟩ => ⟨S128x5120, .f32⟩
  | .local _ .vmem, ⟨5, _⟩ => ⟨S128x5120, .f32⟩
  | _, _ => ⟨S8x16x420x420, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 344], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x5120 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S8x16x420x420_S128x176400 : S8x16x420x420.ShapeCasts S128x176400
  slices_S128x176400_S128x176128_0_0 : S128x176400.Slices ![0, 0] S128x176128
  slices_S176400_S176128_0 : S176400.Slices ![0] S176128
  shapeCasts_S176128_S176128x1 : S176128.ShapeCasts S176128x1
  inb_S128x5120_S128x5120_0_0 : ∀ a, (![0, 0] : Fin 2 → Nat) a + S128x5120.size a ≤ S128x5120.size a
  h_S128x5120 : 0 < S128x5120.numel
  inb_S128x512_S128x512_0_0 : ∀ a, (![0, 0] : Fin 2 → Nat) a + S128x512.size a ≤ S128x512.size a
  h_S128x512 : 0 < S128x512.numel
  shapeCasts_S128x512_S128x512 : S128x512.ShapeCasts S128x512
  bitsLt_bf16_f32 : FTy.bits .bf16 < FTy.bits .f32
  inb_S512x1_S512x1_0_0 : ∀ a, (![0, 0] : Fin 2 → Nat) a + S512x1.size a ≤ S512x1.size a
  h_S512x1 : 0 < S512x1.numel
  shapeCasts_S512x1_S512x1 : S512x1.ShapeCasts S512x1
  iota_S1x5120_d1_w32 : S1x5120.Iotas .tc 32 [1]
  broadcasts_S512x1_S512x5120 : S512x1.Broadcasts S512x5120
  broadcasts_S1x5120_S512x5120 : S1x5120.Broadcasts S512x5120
  natLt_1_32 : 1 < 32
  shapeCasts_S128x5120_S128x5120 : S128x5120.ShapeCasts S128x5120
  slices_S128x10240_S128x10000_0_0 : S128x10240.Slices ![0, 0] S128x10000
  slices_S128x176400_S128x272_0_176128 : S128x176400.Slices ![0, 176128] S128x272
  slices_S176400_S272_176128 : S176400.Slices ![176128] S272
  transposes_S128x272_S272x128_1_0 : S128x272.Transposes [1, 0] S272x128
  bcast_S_S10000x128 : S_.BroadcastsInDim S10000x128 (![] : Fin 0 → Fin S10000x128.rank)
  bcast_S272_S272x1_0 : S272.BroadcastsInDim S272x1 (![0] : Fin 1 → Fin S272x1.rank)
  transposes_S10000x128_S128x10000_1_0 : S10000x128.Transposes [1, 0] S128x10000
  bcast_S_S176400 : S_.BroadcastsInDim S176400 (![] : Fin 0 → Fin S176400.rank)
  bcast_S_S10000 : S_.BroadcastsInDim S10000 (![] : Fin 0 → Fin S10000.rank)
  bcast_S176400_S176400x1_0 : S176400.BroadcastsInDim S176400x1 (![0] : Fin 1 → Fin S176400x1.rank)
  bcast_S10000_S1x10000_1 : S10000.BroadcastsInDim S1x10000 (![1] : Fin 1 → Fin S1x10000.rank)
  bcast_S1x10000_S128x10000_0_1 : S1x10000.BroadcastsInDim S128x10000 (![0, 1] : Fin 2 → Fin S128x10000.rank)
  shapeCasts_S128x10000_S8x16x10000 : S128x10000.ShapeCasts S8x16x10000
  dot_S128x512_S512x5120_S128x5120_1_0_0_1_n_n_wf : DotDims.WF S128x512 S512x5120 S128x5120 [1] [0] [0] [1] [] []
  scatter_S10000x128_S272x1_S272x128_1_0_0_1_wf : ScatterDims.WF S10000x128 S272x1 S272x128 [1] [0] [0] 1
  scatter_S10000_S176400x1_S176400_n_0_0_1_wf : ScatterDims.WF S10000 S176400x1 S176400 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S128x176128.size a
  hwx0_0 : ∀ i : grid0.Coords, EltTy.bits .f32 = 32 ∨ (Rect.block (s := S128x176128) S128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S176128x1.size a
  hwx0_1 : ∀ i : grid0.Coords, EltTy.bits .i32 = 32 ∨ (Rect.block (s := S176128x1) S512x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x5120.size a ≤ S128x10240.size a
  hwx0_2 : ∀ i : grid0.Coords, EltTy.bits .f32 = 32 ∨ (Rect.block (s := S128x10240) S128x5120.size (cc0_transform_2 i) (hinb0_2 i)).WholeWords (EltTy.packing .f32)

variable [Facts₀]

def dot_S128x512_S512x5120_S128x5120_1_0_0_1_n_n : DotDims S128x512 S512x5120 S128x5120 where
  lhsContracting := [1]
  rhsContracting := [0]
  lhsNonContracting := [0]
  rhsNonContracting := [1]
  lhsBatch := []
  rhsBatch := []
  wf := dot_S128x512_S512x5120_S128x5120_1_0_0_1_n_n_wf
def scatter_S10000x128_S272x1_S272x128_1_0_0_1 : ScatterDims S10000x128 S272x1 S272x128 where
  updateWindowDims := [1]
  insertedWindowDims := [0]
  scatterDimsToOperandDims := [0]
  indexVectorDim := 1
  wf := scatter_S10000x128_S272x1_S272x128_1_0_0_1_wf
def scatter_S10000_S176400x1_S176400_n_0_0_1 : ScatterDims S10000 S176400x1 S176400 where
  updateWindowDims := []
  insertedWindowDims := [0]
  scatterDimsToOperandDims := [0]
  indexVectorDim := 1
  wf := scatter_S10000_S176400x1_S176400_n_0_0_1_wf

abbrev win0_0 : Pipeline.Window sig grid0 :=
  Pipeline.Window.ofSpec (Memref.whole main_v1) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S128x5120.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x16x420x420 : Shape := ⟨4, ![8, 16, 420, 420]⟩
abbrev S176400 : Shape := ⟨1, ![176400]⟩
abbrev S128x176400 : Shape := ⟨2, ![128, 176400]⟩
abbrev S176400x128 : Shape := ⟨2, ![176400, 128]⟩
abbrev S_ : Shape := ⟨0, ![]⟩
abbrev S10000x128 : Shape := ⟨2, ![10000, 128]⟩
abbrev S176400x1 : Shape := ⟨2, ![176400, 1]⟩
abbrev S10000 : Shape := ⟨1, ![10000]⟩
abbrev S10000x1 : Shape := ⟨2, ![10000, 1]⟩
abbrev S128x10000 : Shape := ⟨2, ![128, 10000]⟩
abbrev S8x16x10000 : Shape := ⟨3, ![8, 16, 10000]⟩

abbrev nBuf : Space → Nat
  | .hbm => 22
  | .vmem => 0
  | .smem => 0
  | _ => 0

abbrev bufTy : (tb : Table) → Fin (tcTables nBuf tb) → BufTy
  | .hbm, ⟨0, _⟩ => ⟨S8x16x420x420, .f32⟩
  | .hbm, ⟨1, _⟩ => ⟨S176400, .i32⟩
  | .hbm, ⟨2, _⟩ => ⟨S128x176400, .f32⟩
  | .hbm, ⟨3, _⟩ => ⟨S176400x128, .f32⟩
  | .hbm, ⟨4, _⟩ => ⟨S_, .f32⟩
  | .hbm, ⟨5, _⟩ => ⟨S10000x128, .f32⟩
  | .hbm, ⟨6, _⟩ => ⟨S176400x1, .i32⟩
  | .hbm, ⟨7, _⟩ => ⟨S10000x128, .f32⟩
  | .hbm, ⟨8, _⟩ => ⟨S_, .f32⟩
  | .hbm, ⟨9, _⟩ => ⟨S176400, .f32⟩
  | .hbm, ⟨10, _⟩ => ⟨S_, .f32⟩
  | .hbm, ⟨11, _⟩ => ⟨S10000, .f32⟩
  | .hbm, ⟨12, _⟩ => ⟨S176400x1, .i32⟩
  | .hbm, ⟨13, _⟩ => ⟨S10000, .f32⟩
  | .hbm, ⟨14, _⟩ => ⟨S_, .f32⟩
  | .hbm, ⟨15, _⟩ => ⟨S10000, .f32⟩
  | .hbm, ⟨16, _⟩ => ⟨S10000, .f32⟩
  | .hbm, ⟨17, _⟩ => ⟨S10000x1, .f32⟩
  | .hbm, ⟨18, _⟩ => ⟨S10000x128, .f32⟩
  | .hbm, ⟨19, _⟩ => ⟨S10000x128, .f32⟩
  | .hbm, ⟨20, _⟩ => ⟨S128x10000, .f32⟩
  | .hbm, ⟨21, _⟩ => ⟨S8x16x10000, .f32⟩
  | _, _ => ⟨S8x16x420x420, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  shapeCasts_S8x16x420x420_S128x176400 : S8x16x420x420.ShapeCasts S128x176400
  transposes_S128x176400_S176400x128_1_0 : S128x176400.Transposes [1, 0] S176400x128
  bcast_S_S10000x128 : S_.BroadcastsInDim S10000x128 (![] : Fin 0 → Fin S10000x128.rank)
  bcast_S176400_S176400x1_0 : S176400.BroadcastsInDim S176400x1 (![0] : Fin 1 → Fin S176400x1.rank)
  bcast_S_S176400 : S_.BroadcastsInDim S176400 (![] : Fin 0 → Fin S176400.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  transposes_S10000x128_S128x10000_1_0 : S10000x128.Transposes [1, 0] S128x10000
  shapeCasts_S128x10000_S8x16x10000 : S128x10000.ShapeCasts S8x16x10000
  scatter_S10000x128_S176400x1_S176400x128_1_0_0_1_wf : ScatterDims.WF S10000x128 S176400x1 S176400x128 [1] [0] [0] 1
  scatter_S10000_S176400x1_S176400_n_0_0_1_wf : ScatterDims.WF S10000 S176400x1 S176400 [] [0] [0] 1

variable [Facts₀]

def scatter_S10000x128_S176400x1_S176400x128_1_0_0_1 : ScatterDims S10000x128 S176400x1 S176400x128 where
  updateWindowDims := [1]
  insertedWindowDims := [0]
  scatterDimsToOperandDims := [0]
  indexVectorDim := 1
  wf := scatter_S10000x128_S176400x1_S176400x128_1_0_0_1_wf
def scatter_S10000_S176400x1_S176400_n_0_0_1 : ScatterDims S10000 S176400x1 S176400 where
  updateWindowDims := []
  insertedWindowDims := [0]
  scatterDimsToOperandDims := [0]
  indexVectorDim := 1
  wf := scatter_S10000_S176400x1_S176400_n_0_0_1_wf

class Facts : Prop extends Facts₀ where

variable [Facts]
-- ==== Proof.SegmentSum.lean ====
/-
  Sums of the values at the positions that carry a given cluster number. Independent of any program.

  Every position n of a long axis carries a 32-bit word; read as a signed integer it names a cluster. The sum for
  cluster k adds the values at the positions whose word reads k. Three ways of writing that sum meet here:

  * weighted by an indicator: each value is multiplied by 1 where the position's word reads k and by 0 elsewhere, and
    ALL positions are added. Over the extended reals x · 0 = 0 and x · 1 = x for every x, the infinities included, so
    this is the sum over the selected positions, whatever the values;
  * tile by tile: the indicator-weighted terms are added in consecutive tiles of a fixed width;
  * in two stretches: the first A positions and the last B positions of an axis of A + B positions, added separately.

  The indicator itself is computed from words: the position's word is compared for equality with the word of k, the
  one-bit answer widened to 32 bits and converted to a float. For k below 2^31 equality of the words is equality of
  their signed readings.
-/
import Mathlib.Algebra.BigOperators.Fin
import Mathlib.Algebra.BigOperators.Intervals
import Mathlib.Data.EReal.Basic
import Idealize.ShloMosaic.PureOps.Ideal

noncomputable section

namespace Cert.Segment

open Idealize.ShloMosaic Finset

/-- 1 where the word, read signed, is k; 0 elsewhere. -/
def hit (a : BitVec 32) (k : ℕ) : EReal := if a.toInt = (k : ℤ) then 1 else 0

/-- A value times the indicator: the value where the word reads k, zero elsewhere — for EVERY extended real. -/
theorem mul_hit (x : EReal) (a : BitVec 32) (k : ℕ) : x * hit a k = if a.toInt = (k : ℤ) then x else 0 := by
  unfold hit
  split_ifs
  · exact mul_one x
  · exact mul_zero x

/-- For k below 2^31 a word reads k exactly when it is the word of k. -/
theorem toInt_eq_iff (a : BitVec 32) (k : ℕ) (hk : k < 2 ^ 31) : a.toInt = (k : ℤ) ↔ a = BitVec.ofNat 32 k := by
  constructor
  · intro h
    have h2 : BitVec.ofInt 32 a.toInt = a := BitVec.ofInt_toInt
    rw [← h2, h]
    exact BitVec.ofInt_natCast 32 k
  · rintro rfl
    have hn : (BitVec.ofNat 32 k).toNat = k := by
      rw [BitVec.toNat_ofNat]
      exact Nat.mod_eq_of_lt (by omega)
    unfold BitVec.toInt
    rw [hn]
    split_ifs <;> omega

/-- THE INDICATOR AS THE KERNEL COMPUTES IT: compare the words, widen the one-bit answer to 32 bits, convert. -/
theorem indicator_eq (a : BitVec 32) (k : ℕ) (hk : k < 2 ^ 31) :
    FloatOps.sitofp (F := Ideal) .f32 ((IntOp.cmpi .eq a (BitVec.ofNat 32 k)).setWidth 32) = hit a k := by
  unfold hit
  by_cases h : a = BitVec.ofNat 32 k
  · rw [if_pos ((toInt_eq_iff a k hk).mpr h)]
    subst h
    show ((((BitVec.ofBool (BitVec.ofNat 32 k == BitVec.ofNat 32 k)).setWidth 32).toInt : ℝ) : EReal) = 1
    rw [beq_self_eq_true, show ((BitVec.ofBool true).setWidth 32).toInt = 1 from by decide]
    norm_num
  · rw [if_neg (fun h' => h ((toInt_eq_iff a k hk).mp h'))]
    show ((((BitVec.ofBool (a == BitVec.ofNat 32 k)).setWidth 32).toInt : ℝ) : EReal) = 0
    rw [beq_false_of_ne h, show ((BitVec.ofBool false).setWidth 32).toInt = 0 from by decide]
    norm_num

/-- The word of column q of the c-th window of W columns: the lane number plus c times W, in 32-bit arithmetic. -/
theorem column_word (c q W : ℕ) :
    IntOp.addi (BitVec.ofNat 32 q) (IntOp.muli (BitVec.ofNat 32 c) (BitVec.ofNat 32 W)) = BitVec.ofNat 32 (W * c + q) := by
  show BitVec.ofNat 32 q + BitVec.ofNat 32 c * BitVec.ofNat 32 W = _
  rw [← BitVec.ofNat_mul, ← BitVec.ofNat_add, Nat.add_comm, Nat.mul_comm]

/-! ## The three ways of writing the sum -/

/-- All positions, indicator-weighted, are the selected positions. -/
theorem sum_mul_hit {N : ℕ} (x : Fin N → EReal) (a : Fin N → BitVec 32) (k : ℕ) :
    ∑ n, x n * hit (a n) k = ∑ n ∈ univ.filter (fun n => (a n).toInt = (k : ℤ)), x n := by
  rw [Finset.sum_filter]
  exact Finset.sum_congr rfl fun n _ => mul_hit (x n) (a n) k

/-- The selected positions of an axis of A + B positions: those among the first A, plus those among the last B. -/
theorem sum_filter_split {M : Type*} [AddCommMonoid M] (A B : ℕ) (x : Fin (A + B) → M) (P : Fin (A + B) → Prop)
    [DecidablePred P] :
    ∑ n ∈ univ.filter P, x n
      = ∑ n ∈ univ.filter (fun n : Fin A => P (Fin.castAdd B n)), x (Fin.castAdd B n)
        + ∑ e ∈ univ.filter (fun e : Fin B => P (Fin.natAdd A e)), x (Fin.natAdd A e) := by
  simp only [Finset.sum_filter]
  exact Fin.sum_univ_add _

/-- The terms below L, as a function of the natural number n: a term for n < L, zero beyond. -/
def below {L : ℕ} (f : Fin L → EReal) (n : ℕ) : EReal := if h : n < L then f ⟨n, h⟩ else 0

theorem below_of_lt {L : ℕ} (f : Fin L → EReal) {n : ℕ} (h : n < L) : below f n = f ⟨n, h⟩ := dif_pos h

/-- Added over the first L natural numbers they are the L terms. -/
theorem sum_range_below {L : ℕ} (f : Fin L → EReal) : ∑ n ∈ range L, below f n = ∑ n : Fin L, f n := by
  rw [Finset.sum_range]
  exact Finset.sum_congr rfl fun n _ => below_of_lt f n.isLt

end Cert.Segment

end
-- ==== Proof.LibPlainDot.lean ====
/-
  The product of an [M, K] matrix with a [K, N] matrix, contracted on the left operand's second axis and the right
  operand's first, read at an output index. Independent of any program.

  With no batch axis the contraction index has one coordinate, running over the K shared positions; at the output index
  (p, q) the left operand is read at (p, k) and the right at (k, q). So the contraction's sum over its own index type is
  the familiar sum over k of l (p, k) · r (k, q).
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a plain matrix product [M, K] × [K, N] → [M, N]. -/
abbrev plainDot (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- THE CONTRACTION AS A SUM OVER k: at the output index (p, q) the product's terms are l (p, k) · r (k, q). -/
theorem plainDot_sum {M K N : Nat}
    (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (p : Fin M) (q : Fin N) :
    ∑ k : (plainDot M K N wf).contr.Idx,
        l ((plainDot M K N wf).lhsIdx (ix2 p q) k) * r ((plainDot M K N wf).rhsIdx (ix2 p q) k)
      = ∑ k : Fin K, l (ix2 p k) * r (ix2 k q) := by
  rw [← Equiv.sum_comp (contrEquiv1 (plainDot M K N wf) K rfl rfl).symm]
  refine Finset.sum_congr rfl fun k _ => ?_
  have hk := contrEquiv1_symm_val (plainDot M K N wf) K rfl rfl k
  have el : (plainDot M K N wf).lhsIdx (ix2 p q) ((contrEquiv1 (plainDot M K N wf) K rfl rfl).symm k) = ix2 p k :=
    funext fun a => Fin.ext (by
      match a with
      | ⟨0, _⟩ =>
        show ((plainDot M K N wf).lhsIdx (ix2 p q) ((contrEquiv1 (plainDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((plainDot M K N wf).lhsIdx_val_of_single rfl (ix2 p q) _).trans hk)
  have er : (plainDot M K N wf).rhsIdx (ix2 p q) ((contrEquiv1 (plainDot M K N wf) K rfl rfl).symm k) = ix2 k q :=
    funext fun a => Fin.ext (by
      match a with
      | ⟨0, _⟩ => exact ((plainDot M K N wf).rhsIdx_val_of_single rfl (ix2 p q) _).trans hk
      | ⟨1, _⟩ =>
        show ((plainDot M K N wf).rhsIdx (ix2 p q) ((contrEquiv1 (plainDot M K N wf) K rfl rfl).symm k) 1).val = q.val
        unfold DotDims.rhsIdx
        rw [dif_neg (show ¬ (1 : Fin 2) ∈ ([] : List (Fin 2)) from List.not_mem_nil),
          dif_pos (show (1 : Fin 2) ∈ ([1] : List (Fin 2)) from List.mem_singleton.mpr rfl)]
        rfl)
  rw [el, er]

/-- A kernel's matrix product into a zero accumulator, at (p, q). -/
theorem matmul_zero_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDot M K N wf) prec l r (constant (F := Ideal) ⟨2, ![M, N]⟩ .f32 0x00000000#32) (ix2 p q)
      = ∑ k : Fin K, l (ix2 p k) * r (ix2 k q) := by
  rw [Ideal.matmul_constant_zero_apply]
  exact plainDot_sum wf l r p q

/-- The host's matrix product, at (p, q). -/
theorem dotGeneral_plain_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (r : FVec Ideal ⟨2, ![K, N]⟩ φ₂)
    (p : Fin M) (q : Fin N) :
    FloatOps.dotGeneral (plainDot M K N wf) prec sched l r (ix2 p q)
      = ∑ k : Fin K, l (ix2 p k) * r (ix2 k q) := by
  rw [Ideal.dotGeneral_apply]
  exact plainDot_sum wf l r p q

end Cert.Lib

end
-- ==== Proof.KernelBody.lean ====
/-
  One step of the kernel, read entry by entry over the extended reals.

  At a grid point (c, i) the body holds a [128, 512] tile of the values, the 512 cluster words of the tile's positions
  (a [512, 1] column) and the [128, 5120] block of running sums of core c's 5120 clusters. It builds the [512, 5120]
  table whose entry (r, q) is 1 where position r's word equals the word of cluster 5120·c + q and 0 elsewhere (a
  comparison, widened and converted), multiplies the tile by the table, and adds the product to the block. So at
  (p, q) the block gains the sum over the tile's 512 positions r of value (p, r) times the indicator that position r
  carries cluster 5120·c + q. The changes of float format around the product are the identity over the extended reals.
  On the first tile (i = 0) the block is first filled with zeros.
-/
import proofs.«146630_j21534966022159_2_alg».proof.Proof.Gen.KernelIdeal.Frame
import proofs.«146630_j21534966022159_2_alg».proof.Proof.SegmentSum
import proofs.«146630_j21534966022159_2_alg».proof.Proof.LibPlainDot
import Idealize.ShloMosaic.Lib.ValueIdx
import Idealize.ShloMosaic.Lib.ValueLayout
import Idealize.ShloMosaic.Lib.Pipeline.Value
import Idealize.ShloMosaic.Lib.Tactic

noncomputable section

namespace Cert.KernelIdeal.Body

open Idealize.ShloMosaic Idealize.ShloMosaic.ValueIdx Idealize.ShloMosaic.TcCoe Idealize.SL.Sem
open Cert.KernelIdeal Cert.KernelIdeal.Gen Cert.Segment

/-- The column of cluster words, spread over the 5120 lanes, read at (r, q): position r's word. -/
theorem words_spread (v6 : Vec Ideal S512x1 .i32) (r : Fin 512) (q : Fin 5120) :
    broadcastTo S512x5120 (shapeCast S512x1 v6 shapeCasts_S512x1_S512x1) broadcasts_S512x1_S512x5120 (ix2 r q)
      = v6 (ix2 r (0 : Fin 1)) := by
  refine (broadcastTo_apply _ broadcasts_S512x1_S512x5120 (ix2 r q) (ix2 r (0 : Fin 1)) fun ax => ?_).trans
    (congrFun (shapeCast_self v6 _) _)
  match ax with
  | ⟨0, _⟩ => rfl
  | ⟨1, _⟩ => rfl

/-- The row of cluster numbers of core c's window, spread over the 512 positions, read at (r, q): the word of
    5120·c + q. -/
theorem clusters_spread (c : ℕ) (r : Fin 512) (q : Fin 5120) :
    broadcastTo S512x5120
        (addi (iota Kind.tc S1x5120 32 [1] iota_S1x5120_d1_w32)
          (broadcast S1x5120 (Scalar.muli (BitVec.ofNat 32 c) 5120#32)))
        broadcasts_S1x5120_S512x5120 (ix2 r q)
      = BitVec.ofNat 32 (5120 * c + q.val) := by
  refine (broadcastTo_1b_ab_apply _ broadcasts_S1x5120_S512x5120 r q).trans ?_
  show IntOp.addi (BitVec.ofNat 32 (0 * 5120 + q.val)) (IntOp.muli (BitVec.ofNat 32 c) (BitVec.ofNat 32 5120)) = _
  rw [Nat.zero_mul, Nat.zero_add]
  exact column_word c q.val 5120

/-- THE STEP at (p, q): the block's entry plus the tile's indicator-weighted values. -/
theorem pay2_apply (i : grid0.Coords) (v3 : Vec Ideal S128x512 .f32) (v6 : Vec Ideal S512x1 .i32)
    (v18 : Vec Ideal S128x5120 .f32) (p : Fin 128) (q : Fin 5120) :
    k0_pay2 (F := Ideal) i v3 v6 v18 (ix2 p q)
      = v18 (ix2 p q) + ∑ r : Fin 512, v3 (ix2 p r) * hit (v6 (ix2 r (0 : Fin 1))) (5120 * (i 0).val + q.val) := by
  have hc : (i 0).val < 2 := (i 0).isLt
  have hq : q.val < 5120 := q.isLt
  unfold k0_pay2
  dsimp only
  refine (addf_apply _ _ _).trans ?_
  refine congrArg₂ (· + ·) (congrFun (shapeCast_self v18 _) _) ?_
  refine (Cert.Lib.matmul_zero_apply dot_S128x512_S512x5120_S128x5120_1_0_0_1_n_n_wf none _ _ p q).trans ?_
  refine Finset.sum_congr rfl fun r _ => ?_
  refine congrArg₂ (· * ·) (congrFun (shapeCast_self v3 _) _) ?_
  show FloatOps.sitofp (F := Ideal) .f32 ((IntOp.cmpi .eq
      (broadcastTo S512x5120 (shapeCast S512x1 v6 shapeCasts_S512x1_S512x1) broadcasts_S512x1_S512x5120 (ix2 r q))
      (broadcastTo S512x5120
        (addi (iota Kind.tc S1x5120 32 [1] iota_S1x5120_d1_w32)
          (broadcast S1x5120 (Scalar.muli (BitVec.ofNat 32 (i 0).val) 5120#32)))
        broadcasts_S1x5120_S512x5120 (ix2 r q))).setWidth 32) = _
  rw [words_spread, clusters_spread]
  exact indicator_eq _ _ (by omega)

/-- The zero block the first tile starts from, at any entry: zero. -/
theorem pay1_apply (j : S128x5120.Idx) : k0_pay1 (F := Ideal) j = 0 := by
  show Ideal.ofBits .f32 0x00000000#32 = 0
  exact Ideal.ofBits_zero_f32

end Cert.KernelIdeal.Body

end
-- ==== Proof.KernelCases.lean ====
/-
  What one run of the body leaves in the block of running sums, in each of its two cases.

  Away from the first tile the body makes one store that covers the whole block: the step applied to the block as it
  found it. On the first tile it makes two covering stores, zeros first and then the step applied to those zeros as
  read back, so what it leaves is the step applied to the zero block, whatever the block held before.
-/
import proofs.«146630_j21534966022159_2_alg».proof.Proof.KernelBody

noncomputable section

namespace Cert.KernelIdeal.Body

open Idealize.ShloMosaic Idealize.ShloMosaic.ValueIdx Idealize.ShloMosaic.TcCoe Idealize.ShloMosaic.Tactic Idealize.SL.Sem
open Cert.KernelIdeal Cert.KernelIdeal.Gen Cert.Segment

variable {F : FTy → Type} [FloatOps F]

theorem hz : (![0, 0] : Fin 2 → Nat) = fun _ => 0 := funext fun a => by fin_cases a <;> rfl

/-- Away from the first tile: the step applied to the block as found. -/
theorem out_B (c : Dev nD) (i : grid0.Coords) (a2 : Memref sig .tc .vmem S128x512 .f32) (h2 : a2.IsWhole)
    (a3 : Memref sig .tc .vmem S512x1 .i32) (h3 : a3.IsWhole) (a4 : Memref sig .tc .vmem S128x5120 .f32) (h4 : a4.IsWhole)
    (hc : ¬cond0_0 i) (x0 : Vec F S128x512 .f32) (x1 : Vec F S512x1 .i32) (xo : Vec F S128x5120 .f32) :
    out0_B_2 c i a2 h2 a3 h3 a4 h4 hc x0 x1 xo = k0_pay2 i x0 x1 xo := by
  unfold out0_B_2
  rw [View.read_writes_eq_canon _ _ _ (cover0_B_2 c i a2 h2 a3 h3 a4 h4 hc x0 x1 xo)]
  unfold kernelRun0_B
  dsimp only
  rw [View.canon_unit_zero hz]
  simp only [View.readAt_eq_ld, h2.read_unread, h3.read_unread, h4.read_unread, View.ld_unit_zero (S := S128x512) hz,
    View.ld_unit_zero (S := S512x1) hz, View.ld_unit_zero (S := S128x5120) hz]

/-- On the first tile: the step applied to the zero block. -/
theorem out_A (c : Dev nD) (i : grid0.Coords) (a2 : Memref sig .tc .vmem S128x512 .f32) (h2 : a2.IsWhole)
    (a3 : Memref sig .tc .vmem S512x1 .i32) (h3 : a3.IsWhole) (a4 : Memref sig .tc .vmem S128x5120 .f32) (h4 : a4.IsWhole)
    (hc : cond0_0 i) (x0 : Vec F S128x512 .f32) (x1 : Vec F S512x1 .i32) :
    out0_A_2 c i a2 h2 a3 h3 a4 h4 hc x0 x1 = k0_pay2 i x0 x1 (k0_pay1 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S128x5120) hz, View.readCov_unit_zero (S := S128x5120) _ hz]
  simp only [View.readAt_eq_ld, h2.read_unread, h3.read_unread, View.ld_unit_zero (S := S128x512) hz,
    View.ld_unit_zero (S := S512x1) hz]

end Cert.KernelIdeal.Body

end
-- ==== Proof.LibBlockSum.lean ====
/-
  A sum over the first B·(j+1) natural numbers, taken block by block: the terms before block j, plus the B terms of
  block j. This is how a contraction over a long axis is accumulated in pieces of width B; over a commutative monoid
  (the extended reals under addition are one) the pieces add up to the whole sum, whatever the values.
-/
import Mathlib.Algebra.BigOperators.Fin
import Mathlib.Algebra.BigOperators.Intervals

namespace Cert.Lib.BlockSum

open Finset

variable {M : Type*} [AddCommMonoid M]

/-- The terms before block `j`, plus the `B` terms of block `j`, are the terms before block `j + 1`. -/
theorem sum_range_block (f : ℕ → M) (B j : ℕ) :
    ∑ k ∈ range (B * j), f k + ∑ k : Fin B, f (B * j + k.val) = ∑ k ∈ range (B * (j + 1)), f k := by
  rw [Nat.mul_succ, Finset.sum_range_add, Finset.sum_range (fun k => f (B * j + k))]

/-- Block 0 alone: its `B` terms are the terms before block 1. -/
theorem sum_first_block (f : ℕ → M) (B : ℕ) :
    ∑ k : Fin B, f (B * 0 + k.val) = ∑ k ∈ range (B * (0 + 1)), f k := by
  rw [← sum_range_block f B 0, Nat.mul_zero, Finset.range_zero, Finset.sum_empty, zero_add]

end Cert.Lib.BlockSum
-- ==== Proof.KernelAccum.lean ====
/-
  The block of running sums after every grid point.

  The grid has 2 × 344 points, visited in order: point n belongs to core c = n / 344 and is that core's tile
  i = n mod 344. Tile i brings positions 512·i … 512·i + 511 of the long axis: a [128, 512] block of the values and the
  512 cluster words of those positions. After point n the block of core c holds, at (p, q), the sum over the positions
  below 512·(i + 1) of value (p, position) times the indicator that the position carries cluster 5120·c + q: the first
  tile starts from zeros, every later tile adds its 512 terms to what the tile before left, and a sum over the first
  512·(i + 1) positions is the sum over the first 512·i plus the 512 terms of tile i.
-/
import proofs.«146630_j21534966022159_2_alg».proof.Proof.KernelCases
import proofs.«146630_j21534966022159_2_alg».proof.Proof.LibBlockSum

noncomputable section

namespace Cert.KernelIdeal.Accum

open Idealize.ShloMosaic Idealize.ShloMosaic.ValueIdx Idealize.ShloMosaic.TcCoe Idealize.SL.Sem
open Cert.KernelIdeal Cert.KernelIdeal.Gen Cert.KernelIdeal.Body Cert.Segment

/-! ## The grid, decided once -/

/-- Point n is core n / 344's tile n mod 344. -/
theorem coords_eq : ∀ t : Fin cfg0.N, ((grid0.coords t) 0).val = t.val / 344 ∧ ((grid0.coords t) 1).val = t.val % 344 :=
  (by decide +kernel : ∀ t : Fin grid0.N, ((grid0.coords t) 0).val = t.val / 344 ∧ ((grid0.coords t) 1).val = t.val % 344)

/-- The values' block at point n is block (0, n mod 344); -/
theorem index_values : ∀ t : Fin cfg0.N, win0_0.index t 0 = 0 ∧ win0_0.index t 1 = t.val % 344 :=
  (by decide +kernel : ∀ t : Fin grid0.N, win0_0.index t 0 = 0 ∧ win0_0.index t 1 = t.val % 344)

/-- the words' block is block (n mod 344, 0). -/
theorem index_words : ∀ t : Fin cfg0.N, win0_1.index t 0 = t.val % 344 ∧ win0_1.index t 1 = 0 :=
  (by decide +kernel : ∀ t : Fin grid0.N, win0_1.index t 0 = t.val % 344 ∧ win0_1.index t 1 = 0)

/-! ## The input blocks, entry by entry -/

section Blocks
variable {F : FTy → Type} [FloatOps F]
variable (m : (ℓ : Loc nD τ sig) → Buf (Elt F) ℓ)

/-- The values' block at point t, at (p, r): the values' array at (p, 512·(t mod 344) + r). -/
theorem values_block (c : Dev nD) (t : Fin cfg0.N) (p : Fin 128) (r : Fin 512)
    (hlt : 512 * (t.val % 344) + r.val < 176128) :
    (iblk m c 0 t : Vec F S128x512 .f32) (ix2 p r) = V m c main_v1 (ix2 p ⟨512 * (t.val % 344) + r.val, hlt⟩) := by
  have hi := index_values t
  unfold iblk
  rw [View.read_apply]
  show V m c main_v1 _ = V m c main_v1 _
  congr 1
  funext a
  apply Fin.ext
  match a with
  | ⟨0, _⟩ => show win0_0.index t 0 * 128 + 1 * p.val = p.val; rw [hi.1]; omega
  | ⟨1, _⟩ => show win0_0.index t 1 * 512 + 1 * r.val = 512 * (t.val % 344) + r.val; rw [hi.2]; omega

/-- The words' block at point t, at (r, 0): the words' array at (512·(t mod 344) + r, 0). -/
theorem words_block (c : Dev nD) (t : Fin cfg0.N) (r : Fin 512)
    (hlt : 512 * (t.val % 344) + r.val < 176128) :
    (iblk m c 1 t : Vec F S512x1 .i32) (ix2 r (0 : Fin 1)) = V m c main_v3 (ix2 ⟨512 * (t.val % 344) + r.val, hlt⟩ (0 : Fin 1)) := by
  have hi := index_words t
  unfold iblk
  rw [View.read_apply]
  show V m c main_v3 _ = V m c main_v3 _
  congr 1
  funext a
  apply Fin.ext
  match a with
  | ⟨0, _⟩ => show win0_1.index t 0 * 512 + 1 * r.val = 512 * (t.val % 344) + r.val; rw [hi.1]; omega
  | ⟨1, _⟩ => show win0_1.index t 1 * 1 + 1 * 0 = 0; rw [hi.2]

end Blocks

/-! ## One step, over plain arrays -/

/-- The term of position j for row p and cluster k: the value at (p, j) times the indicator that position j carries k. -/
def term (X : S128x176128.Idx → EReal) (W : S176128x1.Idx → BitVec 32) (p : Fin 128) (k : ℕ) (j : Fin 176128) : EReal :=
  X (ix2 p j) * hit (W (ix2 j (0 : Fin 1))) k

/-- The terms of the positions below L, added. -/
def partialSum (X : S128x176128.Idx → EReal) (W : S176128x1.Idx → BitVec 32) (p : Fin 128) (k L : ℕ) : EReal :=
  ∑ j ∈ Finset.range L, below (term X W p k) j

/-- THE STEP: if the block holds the sums over the positions below 512·i, and the tile brings positions 512·i … of the
    two arrays, the body leaves the sums over the positions below 512·(i + 1). -/
theorem step (X : S128x176128.Idx → EReal) (W : S176128x1.Idx → BitVec 32) (c' i : ℕ) (hi : 512 * (i + 1) ≤ 176128)
    (coords : grid0.Coords) (hc : (coords 0).val = c')
    (x0 : Vec Ideal S128x512 .f32) (x1 : Vec Ideal S512x1 .i32) (prev : Vec Ideal S128x5120 .f32)
    (hx0 : ∀ (p : Fin 128) (r : Fin 512) (hlt : 512 * i + r.val < 176128), x0 (ix2 p r) = X (ix2 p ⟨512 * i + r.val, hlt⟩))
    (hx1 : ∀ (r : Fin 512) (hlt : 512 * i + r.val < 176128),
      x1 (ix2 r (0 : Fin 1)) = W (ix2 ⟨512 * i + r.val, hlt⟩ (0 : Fin 1)))
    (hprev : ∀ (p : Fin 128) (q : Fin 5120), prev (ix2 p q) = partialSum X W p (5120 * c' + q.val) (512 * i))
    (p : Fin 128) (q : Fin 5120) :
    k0_pay2 (F := Ideal) coords x0 x1 prev (ix2 p q) = partialSum X W p (5120 * c' + q.val) (512 * (i + 1)) := by
  rw [pay2_apply, hprev, hc]
  unfold partialSum
  rw [← Cert.Lib.BlockSum.sum_range_block _ 512 i]
  refine congrArg (_ + ·) (Finset.sum_congr rfl fun r _ => ?_)
  have hlt : 512 * i + r.val < 176128 := by have := r.isLt; omega
  rw [below_of_lt _ hlt, hx0 p r hlt, hx1 r hlt]
  rfl

/-! ## Every point -/

section Points
variable (m : (ℓ : Loc nD τ sig) → Buf (Elt Ideal) ℓ)

/-- The step at point t, on the blocks the point brings. -/
theorem point_step (c : Dev nD) (t : Fin cfg0.N) (prev : Vec Ideal S128x5120 .f32)
    (hprev : ∀ (p : Fin 128) (q : Fin 5120),
      prev (ix2 p q) = partialSum (V m c main_v1) (V m c main_v3) p (5120 * (t.val / 344) + q.val) (512 * (t.val % 344)))
    (p : Fin 128) (q : Fin 5120) :
    k0_pay2 (F := Ideal) (grid0.coords t) (iblk m c 0 t) (iblk m c 1 t) prev (ix2 p q)
      = partialSum (V m c main_v1) (V m c main_v3) p (5120 * (t.val / 344) + q.val) (512 * (t.val % 344 + 1)) :=
  step (V m c main_v1) (V m c main_v3) (t.val / 344) (t.val % 344) (by omega) (grid0.coords t) (coords_eq t).1
    (iblk m c 0 t) (iblk m c 1 t) prev (fun p r hlt => values_block m c t p r hlt) (fun r hlt => words_block m c t r hlt)
    hprev p q

/-- A core's first tile: the step from zeros. -/
theorem at_first (c : Dev nD) (t : Fin cfg0.N) (h0 : t.val % 344 = 0) (p : Fin 128) (q : Fin 5120) :
    outsAt0 m c t.val t.isLt (ix2 p q)
      = partialSum (V m c main_v1) (V m c main_v3) p (5120 * (t.val / 344) + q.val) (512 * (t.val % 344 + 1)) := by
  rw [outsAt0_A m c t h0, out_A]
  refine point_step m c t _ (fun p' q' => ?_) p q
  rw [pay1_apply, h0]
  exact (Finset.sum_range_zero _).symm

/-- AFTER POINT n the block of core n / 344 holds the sums over the positions below 512·(n mod 344 + 1). -/
theorem outsAt_eq (c : Dev nD) : ∀ (n : ℕ) (h : n < cfg0.N) (p : Fin 128) (q : Fin 5120),
    outsAt0 m c n h (ix2 p q)
      = partialSum (V m c main_v1) (V m c main_v3) p (5120 * (n / 344) + q.val) (512 * (n % 344 + 1))
  | 0, h, p, q => at_first m c ⟨0, h⟩ rfl p q
  | n + 1, h, p, q => by
    by_cases h0 : (n + 1) % 344 = 0
    · exact at_first m c ⟨n + 1, h⟩ h0 p q
    · rw [outsAt0_B m c ⟨n + 1, h⟩ h0, out_B]
      refine point_step m c ⟨n + 1, h⟩ _ (fun p' q' => ?_) p q
      show outsAt0 m c n _ (ix2 p' q') = _
      rw [outsAt_eq c n _ p' q']
      have e1 : (n + 1) / 344 = n / 344 := by omega
      have e2 : (n + 1) % 344 = n % 344 + 1 := by omega
      show _ = partialSum _ _ p' (5120 * ((n + 1) / 344) + q'.val) (512 * ((n + 1) % 344))
      rw [e1, e2]

end Points

end Cert.KernelIdeal.Accum

end
-- ==== Proof.KernelArray.lean ====
/-
  The array of cluster sums the kernel leaves: [128, 10240], one column per cluster number below 10240.

  Core c's block of running sums is written back once, after the core's last tile (point 344·c + 343), into columns
  5120·c … 5120·c + 5119 of the array. By then it holds the sums over the positions below 512·344 = 176128, that is
  over ALL positions of the values' array. The two blocks tile the array, so the array ends holding, at (p, k), the sum
  over all 176128 positions of value (p, position) times the indicator that the position carries cluster k.
-/
import proofs.«146630_j21534966022159_2_alg».proof.Proof.KernelAccum

noncomputable section

namespace Cert.KernelIdeal.Accum

open Idealize.ShloMosaic Idealize.ShloMosaic.ValueIdx Idealize.ShloMosaic.TcCoe Idealize.SL.Sem
open Idealize.ShloMosaic.Pipeline (Dat)
open Cert.KernelIdeal Cert.KernelIdeal.Gen Cert.KernelIdeal.Body Cert.Segment

/-- The sum for row p and cluster k over ALL positions of the values' array. -/
def total (X : S128x176128.Idx → EReal) (W : S176128x1.Idx → BitVec 32) : S128x10240.Idx → EReal :=
  fun y => ∑ j : Fin 176128, term X W (y 0) (y 1).val j

theorem total_apply (X : S128x176128.Idx → EReal) (W : S176128x1.Idx → BitVec 32) (p : Fin 128) (k : Fin 10240) :
    total X W (ix2 p k) = ∑ j : Fin 176128, term X W p k.val j := rfl

/-- The terms of the positions below 176128 are all the terms. -/
theorem partialSum_all (X : S128x176128.Idx → EReal) (W : S176128x1.Idx → BitVec 32) (p : Fin 128) (k : ℕ) :
    partialSum X W p k 176128 = ∑ j : Fin 176128, term X W p k j :=
  sum_range_below (term X W p k)

/-- The block of sums at point n is block (0, n / 344) of the array. -/
theorem index_sums : ∀ t : Fin cfg0.N, win0_2.index t 0 = 0 ∧ win0_2.index t 1 = t.val / 344 :=
  (by decide +kernel : ∀ t : Fin grid0.N, win0_2.index t 0 = 0 ∧ win0_2.index t 1 = t.val / 344)

variable (m : (ℓ : Loc nD τ sig) → Buf (Elt Ideal) ℓ)

/-- WHAT A WRITE-BACK WRITES: the block of the all-positions sums. -/
theorem flushed_eq (c : Dev nD) (t : Fin cfg0.N) (hf : (cfg0.win 2).flush t = true) :
    (dats m 0 c).flushed 2 t
      = ((cfg0.win 2).blk t).view.read (Elt Ideal) (total (V m c main_v1) (V m c main_v3)) := by
  have h343 : t.val % 344 = 343 := (flush0_2 t).mp hf
  have hi := index_sums t
  show (cfg0.win 2).cut (grid0.coords t) ((dats m 0 c).after 2 t) = _
  rw [after0_2]
  funext y
  obtain ⟨p, q, rfl⟩ : ∃ (p : Fin 128) (q : Fin 5120), y = ix2 p q := ⟨y 0, y 1, eq_ix2 y⟩
  rw [View.read_apply, cast_eq]
  show outsAt0 m c t.val t.isLt (ix2 p q) = _
  rw [outsAt_eq m c t.val t.isLt p q, h343]
  have hq : q.val < 5120 := q.isLt
  have hN : t.val < 688 := lt_of_lt_of_eq t.isLt (show cfg0.N = 688 from N_0)
  have hk : 5120 * (t.val / 344) + q.val < 10240 := by omega
  have hemb : ((cfg0.win 2).blk t).view.emb (ix2 p q) = ix2 p (⟨5120 * (t.val / 344) + q.val, hk⟩ : Fin 10240) := by
    funext a
    apply Fin.ext
    match a with
    | ⟨0, _⟩ => show win0_2.index t 0 * 128 + 1 * p.val = p.val; rw [hi.1]; omega
    | ⟨1, _⟩ => show win0_2.index t 1 * 5120 + 1 * q.val = 5120 * (t.val / 344) + q.val; rw [hi.2]; omega
  rw [hemb, show 512 * (343 + 1) = 176128 from by norm_num]
  exact (partialSum_all (V m c main_v1) (V m c main_v3) p (5120 * (t.val / 344) + q.val)).trans
    (total_apply (V m c main_v1) (V m c main_v3) p ⟨5120 * (t.val / 344) + q.val, hk⟩).symm

/-- An index of the array is in point t's block iff each coordinate is in the block's range on its axis. -/
theorem mem_block (t : Fin cfg0.N) (i : S128x10240.Idx) :
    i ∈ ((cfg0.win 2).blk t).view.set
      ↔ ∀ a : Fin 2, win0_2.index t a * S128x5120.size a ≤ (i a).val
          ∧ (i a).val < win0_2.index t a * S128x5120.size a + S128x5120.size a := by
  show i ∈ ((View.whole main_v4).slice (win0_2.rect t)).set ↔ _
  rw [View.set_slice_whole, Rect.mem_set_unit]
  exact Iff.rfl

/-- THE ARRAY after the run: the all-positions sums, everywhere. -/
theorem final_sums (c : Dev nD) :
    (dats m 0 c).arrAt 2 cfg0.N = total (V m c main_v1) (V m c main_v3) :=
  (dats m 0 c).arrAt_eq_of_cover 2 (total (V m c main_v1) (V m c main_v3)) (flushed_eq m c) fun i => by
    have h0 : (i 0).val < 128 := (i 0).isLt
    have h1 : (i 1).val < 10240 := (i 1).isLt
    have hN : cfg0.N = 688 := N_0
    have ht : 344 * ((i 1).val / 5120) + 343 < cfg0.N := by omega
    refine ⟨⟨344 * ((i 1).val / 5120) + 343, ht⟩, (flush0_2 _).mpr (by dsimp only; omega), ?_⟩
    rw [mem_block]
    have hi := index_sums ⟨344 * ((i 1).val / 5120) + 343, ht⟩
    intro a
    match a with
    | ⟨0, _⟩ =>
      show win0_2.index _ 0 * 128 ≤ (i 0).val ∧ (i 0).val < win0_2.index _ 0 * 128 + 128
      rw [hi.1]; omega
    | ⟨1, _⟩ =>
      show win0_2.index _ 1 * 5120 ≤ (i 1).val ∧ (i 1).val < win0_2.index _ 1 * 5120 + 5120
      rw [hi.2]; dsimp only; omega

end Cert.KernelIdeal.Accum

end
-- ==== Proof.KernelRun.lean ====
/-
  The whole idealized kernel program, run: what its result buffer ends holding.

  Before the kernel the host reshapes the [8, 16, 420, 420] values to [128, 176400] and hands the kernel the first
  176128 columns, and the first 176128 cluster words as a column. After the kernel it keeps the first 10000 columns of
  the kernel's [128, 10240] array of sums, adds the sums of the last 272 positions (an accumulating scatter of those
  positions' values), divides by the per-cluster counts (an accumulating scatter of ones, at least 1), and reshapes to
  [8, 16, 10000]. `finish` is that last stretch as one function of the kernel's array, the reshaped values and the
  words; the run's result is `finish` of the all-positions sums.
-/
import proofs.«146630_j21534966022159_2_alg».proof.Proof.KernelArray
import Idealize.ShloMosaic.Lib.StableHlo.Run

noncomputable section

namespace Cert.KernelIdeal.Whole

open Idealize.ShloMosaic Idealize.ShloMosaic.ValueIdx Idealize.ShloMosaic.TcCoe Idealize.SL.Sem
open Idealize.ShloMosaic.Pipeline (Dat)
open Cert.KernelIdeal Cert.KernelIdeal.Gen Cert.KernelIdeal.Accum Cert.Segment

/-- The per-cluster counts: ones accumulated at every position's cluster, and at least 1. -/
def counts (A1 : S176400.Idx → BitVec 32) : S10000.Idx → EReal :=
  maximumf (F := Ideal) (φ := .f32)
    (Host.scatterAdd (F := Ideal) (φ := .f32) scatter_S10000_S176400x1_S176400_n_0_0_1
      (broadcastInDim S10000 ![] bcast_S_S10000 (constant (F := Ideal) S_ .f32 0x00000000#32))
      (broadcastInDim S176400x1 ![0] bcast_S176400_S176400x1_0 A1)
      (broadcastInDim S176400 ![] bcast_S_S176400 (constant (F := Ideal) S_ .f32 0x3F800000#32)))
    (broadcastInDim S10000 ![] bcast_S_S10000 (constant (F := Ideal) S_ .f32 0x3F800000#32))

/-- The sums of the last 272 positions, as the host accumulates them: [10000, 128]. -/
def lastSums (X0 : S128x176400.Idx → EReal) (A1 : S176400.Idx → BitVec 32) : S10000x128.Idx → EReal :=
  Host.scatterAdd (F := Ideal) (φ := .f32) scatter_S10000x128_S272x1_S272x128_1_0_0_1
    (broadcastInDim S10000x128 ![] bcast_S_S10000x128 (constant (F := Ideal) S_ .f32 0x00000000#32))
    (broadcastInDim S272x1 ![0] bcast_S272_S272x1_0 (extractStridedSlice S272 ![176128] A1 slices_S176400_S272_176128))
    (transpose S272x128 [1, 0] (extractStridedSlice S128x272 ![0, 176128] X0 slices_S128x176400_S128x272_0_176128)
      transposes_S128x272_S272x128_1_0)

/-- THE HOST'S LAST STRETCH: the kernel's sums cut to 10000 clusters, plus the last positions' sums, over the counts. -/
def finish (S : S128x10240.Idx → EReal) (X0 : S128x176400.Idx → EReal) (A1 : S176400.Idx → BitVec 32) :
    S8x16x10000.Idx → EReal :=
  shapeCast S8x16x10000
    (Host.divf (F := Ideal) (φ := .f32)
      (addf (F := Ideal) (φ := .f32) (extractStridedSlice S128x10000 ![0, 0] S slices_S128x10240_S128x10000_0_0)
        (transpose S128x10000 [1, 0] (lastSums X0 A1) transposes_S10000x128_S128x10000_1_0))
      (broadcastInDim S128x10000 ![0, 1] bcast_S1x10000_S128x10000_0_1
        (broadcastInDim S1x10000 ![1] bcast_S10000_S1x10000_1 (counts A1))))
    shapeCasts_S128x10000_S8x16x10000

variable (m : (ℓ : Loc nD τ sig) → Buf (Elt Ideal) ℓ) (ρ : Dev nD → PrngReg)

/-! ## The arrays the kernel finds -/

/-- The reshaped values. -/
theorem entry_values (c : Dev nD) :
    (V m c main_v0 : S128x176400.Idx → EReal)
      = shapeCast S128x176400 (m ((c : Thread nD τ).loc main_arg0)) shapeCasts_S8x16x420x420_S128x176400 := by
  show StableHlo.after hostOps0 (fun b => m (c, b)) (Proc.devRef .tc main_v0) = _
  after_results
  rfl

/-- The kernel's values: the first 176128 columns. -/
theorem entry_main_values (c : Dev nD) :
    (V m c main_v1 : S128x176128.Idx → EReal)
      = extractStridedSlice S128x176128 ![0, 0]
          (shapeCast S128x176400 (m ((c : Thread nD τ).loc main_arg0)) shapeCasts_S8x16x420x420_S128x176400)
          slices_S128x176400_S128x176128_0_0 := by
  show StableHlo.after hostOps0 (fun b => m (c, b)) (Proc.devRef .tc main_v1) = _
  after_results
  rfl

/-- The kernel's words: the first 176128, as a column. -/
theorem entry_main_words (c : Dev nD) :
    (V m c main_v3 : S176128x1.Idx → BitVec 32)
      = shapeCast S176128x1 (extractStridedSlice S176128 ![0] (m ((c : Thread nD τ).loc main_arg1)) slices_S176400_S176128_0)
          shapeCasts_S176128_S176128x1 := by
  show StableHlo.after hostOps0 (fun b => m (c, b)) (Proc.devRef .tc main_v3) = _
  after_results
  rfl

/-! ## The result -/

set_option maxHeartbeats 2000000 in
/-- What the lines after the kernel leave in the result buffer: `finish` of the three buffers they read. -/
theorem tail_value (c : Dev nD) :
    Pipeline.afterTail₀ cfgs (dats m) 0 (V0 m) [hostOps1] c main_v23
      = finish
          (Pipeline.withArrays (cfgs 0).spec c (V0 m c) (fun w => (dats m 0 c).arrAt w (cfgs 0).N) (Proc.devRef .tc main_v4))
          (Pipeline.withArrays (cfgs 0).spec c (V0 m c) (fun w => (dats m 0 c).arrAt w (cfgs 0).N) (Proc.devRef .tc main_v0))
          (Pipeline.withArrays (cfgs 0).spec c (V0 m c) (fun w => (dats m 0 c).arrAt w (cfgs 0).N) (Proc.devRef .tc main_arg1)) := by
  unfold Pipeline.afterTail₀
  show StableHlo.after hostOps1 _ (Proc.devRef .tc main_v23) = _
  after_results_simp
  unfold finish lastSums counts
  rfl

/-- The kernel's array after the region: the all-positions sums. -/
theorem tail_sums (c : Dev nD) :
    Pipeline.withArrays (cfgs 0).spec c (V0 m c) (fun w => (dats m 0 c).arrAt w (cfgs 0).N) (Proc.devRef .tc main_v4)
      = total (V m c main_v1) (V m c main_v3) :=
  (Pipeline.withArrays_arr spec0 launch0.win.arr_inj c _ _ 2).trans (final_sums m c)

/-- The reshaped values are no array of the kernel: as the region found them. -/
theorem tail_values (c : Dev nD) :
    Pipeline.withArrays (cfgs 0).spec c (V0 m c) (fun w => (dats m 0 c).arrAt w (cfgs 0).N) (Proc.devRef .tc main_v0)
      = V m c main_v0 :=
  Pipeline.withArrays_of_ne _ c (V0 m c) _ main_v0 (by exact (by decide : ∀ w, Pipeline.arrRef spec0 w ≠ main_v0))

/-- Nor are the words. -/
theorem tail_words (c : Dev nD) :
    Pipeline.withArrays (cfgs 0).spec c (V0 m c) (fun w => (dats m 0 c).arrAt w (cfgs 0).N) (Proc.devRef .tc main_arg1)
      = m ((c : Thread nD τ).loc main_arg1) :=
  (Pipeline.withArrays_of_ne _ c (V0 m c) _ main_arg1 (by exact (by decide : ∀ w, Pipeline.arrRef spec0 w ≠ main_arg1))).trans
    (V_main_arg1 m c)

/-- The result of the run on core c. -/
def result (c : Dev nD) : S8x16x10000.Idx → EReal :=
  finish (total (V m c main_v1) (V m c main_v3)) (V m c main_v0) (m ((c : Thread nD τ).loc main_arg1))

/-- THE RUN: every weakly fair execution terminates with the result buffer at `result` and the arguments unchanged. -/
theorem run : θ_run defs (onTc (τ := τ) (main (F := Ideal))) ⟨m, fun _ => 0, ρ⟩ fun r => ∀ c : Dev nD,
      r.2.mem ((c.tc : Thread nD τ).loc main_v23) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v23 (Pipeline.mem_restRefs_of main_v23 (by decide) (by decide))).trans
        ((tail_value m c).trans (by rw [tail_sums, tail_values, tail_words]; rfl)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Whole

end
-- ==== Proof.LibEdgeGatherScatter.lean ====
/-
  Gathers and accumulating scatters keyed by ONE integer per edge, in two layouts. Independent of any program.

  An edge list of length `E` carries, per edge `e`, one integer `idx[e, 0]` (the start indices have shape `[E, 1]`).

  1. GATHER.  Rows of a matrix `x : [N, D]` taken at the edges' integers (`x[idx]`: offset axis 1, collapsed axis 0,
     slices `[1, D]`) give `[E, D]`, whose element `(e, c)` is `x` at row `clampRow idx e` — the integer read signed
     and clamped into `[0, N − 1]`, as the gather clamps every start index — and column `c`.  The same integers taken
     along the MIDDLE axis of `x : [B, N, D]` (`x[:, idx, :]`: offset axes 0 and 2, collapsed axis 1, slices
     `[B, 1, D]`) give `[B, E, D]`, whose element `(b, e, o)` is `x` at `(b, clampRow idx e, o)`.

  2. ACCUMULATING SCATTER over the extended reals.  Updates `[E, D]` added into `x : [N, D]` at the rows the edges'
     integers name (window axis 1, inserted axis 0) leave at `(n, c)` the value `x (n, c)` plus the sum, over the edges
     whose integer, read signed, IS `n`, of the update at `(e, c)`; an edge whose integer is outside `[0, N)` lands
     nowhere.  Updates `[B, E, D]` added into `x : [B, N, D]` along the middle axis (window axes 0 and 2, inserted
     axis 1) leave at `(b, n, o)` the value `x (b, n, o)` plus the sum over the same edges of the update at `(b, e, o)`.
     In both layouts the sum ranges over the SAME set of edges, which is what lets a scatter over a matrix whose rows
     pack `B` blocks of width `O` be compared with the scatter over the unpacked `[B, N, O]` array.
-/
import Idealize.ShloMosaic.Lib.ValueIdx
import Idealize.ShloMosaic.PureOps.Ideal

noncomputable section

namespace Cert.Lib

open Idealize.ShloMosaic Idealize.ShloMosaic.ValueIdx

/-! ## The row an edge's integer selects -/

/-- The row of an `N`-row operand that edge `e` reads: its integer `idx[e, 0]`, signed, clamped into `[0, N − 1]`. -/
def clampRow {E w : Nat} (N : Nat) (hN : 0 < N) (idx : IVec ⟨2, ![E, 1]⟩ w) (e : Fin E) : Fin N :=
  ⟨min (idx (ix2 e (0 : Fin 1))).toInt.toNat (N - 1), by omega⟩

/-! ## Gathers -/

section Gather
variable {α : Type}

/-- The dimension numbers of `x[idx]` for an operand `[N, D]`, start indices `[E, 1]` and result `[E, D]`. -/
abbrev rowGatherDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- ROWS OF A MATRIX at `(e, c)`: the operand at row `clampRow idx e`, column `c`. -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (c : Fin D) :
    Host.gather (rowGatherDims N D E wf) x idx (ix2 e c) = x (ix2 (clampRow N hN idx e) c) := by
  unfold Host.gather
  congr 1
  funext a
  refine Fin.ext ?_
  match a with
  | ⟨0, _⟩ =>
    show (rowGatherDims N D E wf).start (ix2 e c) idx 0 + (rowGatherDims N D E wf).batchCoord (ix2 e c) 0
        + (rowGatherDims N D E wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N D E wf).startIndexMap from List.mem_singleton.mpr rfl)]
    have hsi : (rowGatherDims N D E wf).siIdx (ix2 e c) ⟨List.idxOf (0 : Fin 2) (rowGatherDims N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N D E wf).start (ix2 e c) idx 1 + (rowGatherDims N D E wf).batchCoord (ix2 e c) 1
        + (rowGatherDims N D E wf).offCoord (ix2 e c) 1 = _
    rw [GatherDims.batchCoord_eq_zero _ _ _ List.not_mem_nil]
    unfold GatherDims.start
    rw [dif_neg (show ¬ (1 : Fin 2) ∈ ([0] : List (Fin 2)) from by decide)]
    have hk : (1 : Fin 2) ∈ (rowGatherDims N D E wf).sKept :=
      (GatherDims.mem_sKept _ _).mpr ⟨(show ¬ (1 : Fin 2) ∈ ([0] : List (Fin 2)) from by decide), List.not_mem_nil⟩
    unfold GatherDims.offCoord
    rw [dif_pos hk]
    simp only [Nat.zero_add, Nat.add_zero]
    rfl

/-- The dimension numbers of `x[:, idx, :]` for an operand `[B, N, D]`, start indices `[E, 1]` and result
    `[B, E, D]`. -/
abbrev midGatherDims (B N D E : Nat)
    (wf : GatherDims.WF ⟨3, ![B, N, D]⟩ ⟨2, ![E, 1]⟩ ⟨3, ![B, E, D]⟩ [0, 2] [1] [] [1] [] 1 ![B, 1, D]) :
    GatherDims ⟨3, ![B, N, D]⟩ ⟨2, ![E, 1]⟩ ⟨3, ![B, E, D]⟩ where
  offsetDims := [0, 2]
  collapsedSliceDims := [1]
  operandBatchingDims := []
  startIndicesBatchingDims := []
  startIndexMap := [1]
  indexVectorDim := 1
  sliceSizes := ![B, 1, D]
  wf := wf

/-- THE MIDDLE AXIS OF A RANK-3 ARRAY at `(b, e, o)`: the operand at `(b, clampRow idx e, o)`. -/
theorem gather_mid_apply {B N D E w : Nat} (hN : 0 < N)
    (wf : GatherDims.WF ⟨3, ![B, N, D]⟩ ⟨2, ![E, 1]⟩ ⟨3, ![B, E, D]⟩ [0, 2] [1] [] [1] [] 1 ![B, 1, D])
    (x : (⟨3, ![B, N, D]⟩ : Shape).Idx → α) (idx : IVec ⟨2, ![E, 1]⟩ w) (b : Fin B) (e : Fin E) (o : Fin D) :
    Host.gather (midGatherDims B N D E wf) x idx (ix3 b e o) = x (ix3 b (clampRow N hN idx e) o) := by
  unfold Host.gather
  congr 1
  funext a
  refine Fin.ext ?_
  match a with
  | ⟨0, _⟩ =>
    show (midGatherDims B N D E wf).start (ix3 b e o) idx 0 + (midGatherDims B N D E wf).batchCoord (ix3 b e o) 0
        + (midGatherDims B N D E wf).offCoord (ix3 b e o) 0 = _
    rw [GatherDims.batchCoord_eq_zero _ _ _ List.not_mem_nil]
    unfold GatherDims.start
    rw [dif_neg (show ¬ (0 : Fin 3) ∈ ([1] : List (Fin 3)) from by decide)]
    have hk : (0 : Fin 3) ∈ (midGatherDims B N D E wf).sKept :=
      (GatherDims.mem_sKept _ _).mpr ⟨(show ¬ (0 : Fin 3) ∈ ([1] : List (Fin 3)) from by decide), List.not_mem_nil⟩
    unfold GatherDims.offCoord
    rw [dif_pos hk]
    simp only [Nat.zero_add, Nat.add_zero]
    rfl
  | ⟨1, _⟩ =>
    show (midGatherDims B N D E wf).start (ix3 b e o) idx 1 + (midGatherDims B N D E wf).batchCoord (ix3 b e o) 1
        + (midGatherDims B N D E wf).offCoord (ix3 b e o) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (midGatherDims B N D E wf).startIndexMap from List.mem_singleton.mpr rfl)]
    have hsi : (midGatherDims B N D E wf).siIdx (ix3 b e o) ⟨List.idxOf (1 : Fin 3) (midGatherDims B N D E wf).startIndexMap,
        List.idxOf_lt_length_iff.2 (List.mem_singleton.mpr rfl)⟩ = ix2 e (0 : Fin 1) := by
      funext b'; refine Fin.ext ?_
      match b' with
      | ⟨0, _⟩ => rfl
      | ⟨1, _⟩ => rfl
    rw [hsi]
    rfl
  | ⟨2, _⟩ =>
    show (midGatherDims B N D E wf).start (ix3 b e o) idx 2 + (midGatherDims B N D E wf).batchCoord (ix3 b e o) 2
        + (midGatherDims B N D E wf).offCoord (ix3 b e o) 2 = _
    rw [GatherDims.batchCoord_eq_zero _ _ _ List.not_mem_nil]
    unfold GatherDims.start
    rw [dif_neg (show ¬ (2 : Fin 3) ∈ ([1] : List (Fin 3)) from by decide)]
    have hk : (2 : Fin 3) ∈ (midGatherDims B N D E wf).sKept :=
      (GatherDims.mem_sKept _ _).mpr ⟨(show ¬ (2 : Fin 3) ∈ ([1] : List (Fin 3)) from by decide), List.not_mem_nil⟩
    unfold GatherDims.offCoord
    rw [dif_pos hk]
    simp only [Nat.zero_add, Nat.add_zero]
    rfl

end Gather

/-! ## Accumulating scatters over the extended reals -/

section Scatter

/-- An operand axis receives a window coordinate exactly when it is not an inserted axis. -/
theorem mem_sKept_iff {s si u : Shape} (d : ScatterDims s si u) (a : Fin s.rank) :
    a ∈ d.sKept ↔ a ∉ d.insertedWindowDims := by
  simp [ScatterDims.sKept, Shape.kept, List.mem_filter, List.mem_finRange]

/-! ### Rows of a matrix -/

/-- The dimension numbers of `x.at[idx].add(upd)` for an operand `[N, D]`, scatter indices `[E, 1]` and updates
    `[E, D]`. -/
abbrev rowScatterDims (N D E : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

section Rows
variable {N D E w : Nat} (wf : ScatterDims.WF ⟨2, ![N, D]⟩ ⟨2, ![E, 1]⟩ ⟨2, ![E, D]⟩ [1] [0] [0] 1)
  (idx : IVec ⟨2, ![E, 1]⟩ w)

/-- On the row axis the window of update `(e, c)` starts at edge `e`'s integer, read signed, … -/
theorem rowScatter_start0 (e : Fin E) (c : Fin D) :
    (rowScatterDims N D E wf).start (ix2 e c) idx 0 = (idx (ix2 e (0 : Fin 1))).toInt := by
  unfold ScatterDims.start
  rw [dif_pos (show (0 : Fin 2) ∈ (rowScatterDims N D E wf).scatterDimsToOperandDims from List.mem_singleton.mpr rfl)]
  have hsi : (rowScatterDims N D E wf).siIdx (ix2 e c) ⟨List.idxOf (0 : Fin 2) (rowScatterDims N D E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- … and on the column axis at zero. -/
theorem rowScatter_start1 (j : (⟨2, ![E, D]⟩ : Shape).Idx) : (rowScatterDims N D E wf).start j idx 1 = 0 := by
  unfold ScatterDims.start
  rw [dif_neg (show ¬ (1 : Fin 2) ∈ ([0] : List (Fin 2)) from by decide)]

/-- The window coordinate is zero on the row axis … -/
theorem rowScatter_window0 (j : (⟨2, ![E, D]⟩ : Shape).Idx) : (rowScatterDims N D E wf).window j 0 = 0 := by
  unfold ScatterDims.window
  rw [dif_neg (fun h => ((mem_sKept_iff _ _).mp h) (List.mem_singleton.mpr rfl))]

/-- … and the update's column on the column axis. -/
theorem rowScatter_window1 (e : Fin E) (c : Fin D) : (rowScatterDims N D E wf).window (ix2 e c) 1 = c.val := by
  have hk : (1 : Fin 2) ∈ (rowScatterDims N D E wf).sKept :=
    (mem_sKept_iff _ _).mpr (show ¬ (1 : Fin 2) ∈ ([0] : List (Fin 2)) from by decide)
  unfold ScatterDims.window
  rw [dif_pos hk]
  rfl

/-- WHERE UPDATE `(e, c)` LANDS: at `(n, c')` exactly when edge `e`'s integer, read signed, is `n` and the columns agree. -/
theorem rowScatter_resultIdx_iff (e : Fin E) (c : Fin D) (n : Fin N) (c' : Fin D) :
    (rowScatterDims N D E wf).resultIdx? (ix2 e c) idx = some (ix2 n c')
      ↔ (idx (ix2 e (0 : Fin 1))).toInt = (n.val : Int) ∧ c = c' := by
  have h0 : (rowScatterDims N D E wf).start (ix2 e c) idx 0 + ((rowScatterDims N D E wf).window (ix2 e c) 0 : Int)
      = (idx (ix2 e (0 : Fin 1))).toInt := by
    rw [rowScatter_start0, rowScatter_window0]; simp
  have h1 : (rowScatterDims N D E wf).start (ix2 e c) idx 1 + ((rowScatterDims N D E wf).window (ix2 e c) 1 : Int)
      = (c.val : Int) := by
    rw [rowScatter_start1, rowScatter_window1]; simp
  constructor
  · intro hs
    unfold ScatterDims.resultIdx? at hs
    split at hs
    · rename_i h
      have hf := Option.some.inj hs
      have e0 : ((rowScatterDims N D E wf).start (ix2 e c) idx 0 + ((rowScatterDims N D E wf).window (ix2 e c) 0 : Int)).toNat
          = n.val := congrArg Fin.val (congrFun hf 0)
      have e1 : ((rowScatterDims N D E wf).start (ix2 e c) idx 1 + ((rowScatterDims N D E wf).window (ix2 e c) 1 : Int)).toNat
          = c'.val := congrArg Fin.val (congrFun hf 1)
      have b0 : 0 ≤ (rowScatterDims N D E wf).start (ix2 e c) idx 0 + ((rowScatterDims N D E wf).window (ix2 e c) 0 : Int) :=
        (h 0).1
      rw [h0] at e0 b0
      rw [h1] at e1
      exact ⟨by omega, Fin.ext (by omega)⟩
    · exact absurd hs (by simp)
  · rintro ⟨hr, rfl⟩
    have hn : n.val < N := n.isLt
    have hc : c.val < D := c.isLt
    have h : ∀ a, 0 ≤ (rowScatterDims N D E wf).start (ix2 e c) idx a + ((rowScatterDims N D E wf).window (ix2 e c) a : Int)
        ∧ (rowScatterDims N D E wf).start (ix2 e c) idx a + ((rowScatterDims N D E wf).window (ix2 e c) a : Int)
          < ((⟨2, ![N, D]⟩ : Shape).size a : Int) := by
      intro a
      match a with
      | ⟨0, _⟩ =>
        show 0 ≤ (rowScatterDims N D E wf).start (ix2 e c) idx 0 + ((rowScatterDims N D E wf).window (ix2 e c) 0 : Int)
          ∧ (rowScatterDims N D E wf).start (ix2 e c) idx 0 + ((rowScatterDims N D E wf).window (ix2 e c) 0 : Int) < (N : Int)
        rw [h0, hr]; omega
      | ⟨1, _⟩ =>
        show 0 ≤ (rowScatterDims N D E wf).start (ix2 e c) idx 1 + ((rowScatterDims N D E wf).window (ix2 e c) 1 : Int)
          ∧ (rowScatterDims N D E wf).start (ix2 e c) idx 1 + ((rowScatterDims N D E wf).window (ix2 e c) 1 : Int) < (D : Int)
        rw [h1]; omega
    unfold ScatterDims.resultIdx?
    rw [dif_pos h]
    refine congrArg some (funext fun a => Fin.ext ?_)
    match a with
    | ⟨0, _⟩ =>
      show ((rowScatterDims N D E wf).start (ix2 e c) idx 0 + ((rowScatterDims N D E wf).window (ix2 e c) 0 : Int)).toNat = n.val
      rw [h0, hr]; omega
    | ⟨1, _⟩ =>
      show ((rowScatterDims N D E wf).start (ix2 e c) idx 1 + ((rowScatterDims N D E wf).window (ix2 e c) 1 : Int)).toNat = c.val
      rw [h1]; omega

/-- ROWS ACCUMULATED INTO A MATRIX at `(n, c)`: the operand there plus the updates `(e, c)` of the edges whose integer
    is `n`. -/
theorem scatterAdd_rows_apply (x : (⟨2, ![N, D]⟩ : Shape).Idx → EReal) (upd : (⟨2, ![E, D]⟩ : Shape).Idx → EReal)
    (n : Fin N) (c : Fin D) :
    Ideal.hostScatterAdd (rowScatterDims N D E wf) x idx upd (ix2 n c)
      = x (ix2 n c) + ∑ e ∈ Finset.univ.filter (fun e : Fin E => (idx (ix2 e (0 : Fin 1))).toInt = (n.val : Int)),
          upd (ix2 e c) := by
  unfold Ideal.hostScatterAdd
  refine congrArg (x (ix2 n c) + ·) ?_
  have key : ∀ j : (⟨2, ![E, D]⟩ : Shape).Idx, (rowScatterDims N D E wf).resultIdx? j idx = some (ix2 n c) →
      (idx (ix2 (j 0 : Fin E) (0 : Fin 1))).toInt = (n.val : Int) ∧ ix2 (j 0 : Fin E) c = j := by
    intro j hj
    obtain ⟨e, c', rfl⟩ : ∃ (e : Fin E) (c' : Fin D), j = ix2 e c' := ⟨j 0, j 1, eq_ix2 j⟩
    obtain ⟨hr, rfl⟩ := (rowScatter_resultIdx_iff wf idx e c' n c).mp hj
    exact ⟨hr, rfl⟩
  refine Finset.sum_nbij' (fun j => (j 0 : Fin E)) (fun e => ix2 e c) ?_ ?_ ?_ ?_ ?_
  · intro j hj
    exact Finset.mem_filter.mpr ⟨Finset.mem_univ _, (key j (Finset.mem_filter.mp hj).2).1⟩
  · intro e he
    exact Finset.mem_filter.mpr ⟨Finset.mem_univ _,
      (rowScatter_resultIdx_iff wf idx e c n c).mpr ⟨(Finset.mem_filter.mp he).2, rfl⟩⟩
  · intro j hj
    exact (key j (Finset.mem_filter.mp hj).2).2
  · intro e _
    rfl
  · intro j hj
    exact congrArg upd (key j (Finset.mem_filter.mp hj).2).2.symm

end Rows

/-! ### The middle axis of a rank-3 array -/

/-- The dimension numbers of `x.at[:, idx, :].add(upd)` for an operand `[B, N, D]`, scatter indices `[E, 1]` and
    updates `[B, E, D]`. -/
abbrev midScatterDims (B N D E : Nat)
    (wf : ScatterDims.WF ⟨3, ![B, N, D]⟩ ⟨2, ![E, 1]⟩ ⟨3, ![B, E, D]⟩ [0, 2] [1] [1] 1) :
    ScatterDims ⟨3, ![B, N, D]⟩ ⟨2, ![E, 1]⟩ ⟨3, ![B, E, D]⟩ where
  updateWindowDims := [0, 2]
  insertedWindowDims := [1]
  scatterDimsToOperandDims := [1]
  indexVectorDim := 1
  wf := wf

section Mid
variable {B N D E w : Nat} (wf : ScatterDims.WF ⟨3, ![B, N, D]⟩ ⟨2, ![E, 1]⟩ ⟨3, ![B, E, D]⟩ [0, 2] [1] [1] 1)
  (idx : IVec ⟨2, ![E, 1]⟩ w)

/-- On the middle axis the window of update `(b, e, o)` starts at edge `e`'s integer, read signed, … -/
theorem midScatter_start1 (b : Fin B) (e : Fin E) (o : Fin D) :
    (midScatterDims B N D E wf).start (ix3 b e o) idx 1 = (idx (ix2 e (0 : Fin 1))).toInt := by
  unfold ScatterDims.start
  rw [dif_pos (show (1 : Fin 3) ∈ (midScatterDims B N D E wf).scatterDimsToOperandDims from List.mem_singleton.mpr rfl)]
  have hsi : (midScatterDims B N D E wf).siIdx (ix3 b e o) ⟨List.idxOf (1 : Fin 3) (midScatterDims B N D E wf).scatterDimsToOperandDims,
      List.idxOf_lt_length_iff.2 (List.mem_singleton.mpr rfl)⟩ = ix2 e (0 : Fin 1) := by
    funext b'; refine Fin.ext ?_
    match b' with
    | ⟨0, _⟩ => rfl
    | ⟨1, _⟩ => rfl
  rw [hsi]

/-- … and on the outer axes at zero. -/
theorem midScatter_start0 (j : (⟨3, ![B, E, D]⟩ : Shape).Idx) : (midScatterDims B N D E wf).start j idx 0 = 0 := by
  unfold ScatterDims.start
  rw [dif_neg (show ¬ (0 : Fin 3) ∈ ([1] : List (Fin 3)) from by decide)]
theorem midScatter_start2 (j : (⟨3, ![B, E, D]⟩ : Shape).Idx) : (midScatterDims B N D E wf).start j idx 2 = 0 := by
  unfold ScatterDims.start
  rw [dif_neg (show ¬ (2 : Fin 3) ∈ ([1] : List (Fin 3)) from by decide)]

/-- The window coordinates are the update's outer coordinates, and zero on the middle axis. -/
theorem midScatter_window0 (b : Fin B) (e : Fin E) (o : Fin D) : (midScatterDims B N D E wf).window (ix3 b e o) 0 = b.val := by
  have hk : (0 : Fin 3) ∈ (midScatterDims B N D E wf).sKept :=
    (mem_sKept_iff _ _).mpr (show ¬ (0 : Fin 3) ∈ ([1] : List (Fin 3)) from by decide)
  unfold ScatterDims.window
  rw [dif_pos hk]
  rfl
theorem midScatter_window1 (j : (⟨3, ![B, E, D]⟩ : Shape).Idx) : (midScatterDims B N D E wf).window j 1 = 0 := by
  unfold ScatterDims.window
  rw [dif_neg (fun h => ((mem_sKept_iff _ _).mp h) (List.mem_singleton.mpr rfl))]
theorem midScatter_window2 (b : Fin B) (e : Fin E) (o : Fin D) : (midScatterDims B N D E wf).window (ix3 b e o) 2 = o.val := by
  have hk : (2 : Fin 3) ∈ (midScatterDims B N D E wf).sKept :=
    (mem_sKept_iff _ _).mpr (show ¬ (2 : Fin 3) ∈ ([1] : List (Fin 3)) from by decide)
  unfold ScatterDims.window
  rw [dif_pos hk]
  rfl

/-- WHERE UPDATE `(b, e, o)` LANDS: at `(b', n, o')` exactly when edge `e`'s integer, read signed, is `n` and the outer
    coordinates agree. -/
theorem midScatter_resultIdx_iff (b : Fin B) (e : Fin E) (o : Fin D) (b' : Fin B) (n : Fin N) (o' : Fin D) :
    (midScatterDims B N D E wf).resultIdx? (ix3 b e o) idx = some (ix3 b' n o')
      ↔ (idx (ix2 e (0 : Fin 1))).toInt = (n.val : Int) ∧ b = b' ∧ o = o' := by
  have h0 : (midScatterDims B N D E wf).start (ix3 b e o) idx 0 + ((midScatterDims B N D E wf).window (ix3 b e o) 0 : Int)
      = (b.val : Int) := by
    rw [midScatter_start0, midScatter_window0]; simp
  have h1 : (midScatterDims B N D E wf).start (ix3 b e o) idx 1 + ((midScatterDims B N D E wf).window (ix3 b e o) 1 : Int)
      = (idx (ix2 e (0 : Fin 1))).toInt := by
    rw [midScatter_start1, midScatter_window1]; simp
  have h2 : (midScatterDims B N D E wf).start (ix3 b e o) idx 2 + ((midScatterDims B N D E wf).window (ix3 b e o) 2 : Int)
      = (o.val : Int) := by
    rw [midScatter_start2, midScatter_window2]; simp
  constructor
  · intro hs
    unfold ScatterDims.resultIdx? at hs
    split at hs
    · rename_i h
      have hf := Option.some.inj hs
      have e0 : ((midScatterDims B N D E wf).start (ix3 b e o) idx 0 + ((midScatterDims B N D E wf).window (ix3 b e o) 0 : Int)).toNat
          = b'.val := congrArg Fin.val (congrFun hf 0)
      have e1 : ((midScatterDims B N D E wf).start (ix3 b e o) idx 1 + ((midScatterDims B N D E wf).window (ix3 b e o) 1 : Int)).toNat
          = n.val := congrArg Fin.val (congrFun hf 1)
      have e2 : ((midScatterDims B N D E wf).start (ix3 b e o) idx 2 + ((midScatterDims B N D E wf).window (ix3 b e o) 2 : Int)).toNat
          = o'.val := congrArg Fin.val (congrFun hf 2)
      have b1 : 0 ≤ (midScatterDims B N D E wf).start (ix3 b e o) idx 1 + ((midScatterDims B N D E wf).window (ix3 b e o) 1 : Int) :=
        (h 1).1
      rw [h0] at e0
      rw [h1] at e1 b1
      rw [h2] at e2
      exact ⟨by omega, Fin.ext (by omega), Fin.ext (by omega)⟩
    · exact absurd hs (by simp)
  · rintro ⟨hr, rfl, rfl⟩
    have hb : b.val < B := b.isLt
    have hn : n.val < N := n.isLt
    have ho : o.val < D := o.isLt
    have h : ∀ a, 0 ≤ (midScatterDims B N D E wf).start (ix3 b e o) idx a + ((midScatterDims B N D E wf).window (ix3 b e o) a : Int)
        ∧ (midScatterDims B N D E wf).start (ix3 b e o) idx a + ((midScatterDims B N D E wf).window (ix3 b e o) a : Int)
          < ((⟨3, ![B, N, D]⟩ : Shape).size a : Int) := by
      intro a
      match a with
      | ⟨0, _⟩ =>
        show 0 ≤ (midScatterDims B N D E wf).start (ix3 b e o) idx 0 + ((midScatterDims B N D E wf).window (ix3 b e o) 0 : Int)
          ∧ (midScatterDims B N D E wf).start (ix3 b e o) idx 0 + ((midScatterDims B N D E wf).window (ix3 b e o) 0 : Int) < (B : Int)
        rw [h0]; omega
      | ⟨1, _⟩ =>
        show 0 ≤ (midScatterDims B N D E wf).start (ix3 b e o) idx 1 + ((midScatterDims B N D E wf).window (ix3 b e o) 1 : Int)
          ∧ (midScatterDims B N D E wf).start (ix3 b e o) idx 1 + ((midScatterDims B N D E wf).window (ix3 b e o) 1 : Int) < (N : Int)
        rw [h1, hr]; omega
      | ⟨2, _⟩ =>
        show 0 ≤ (midScatterDims B N D E wf).start (ix3 b e o) idx 2 + ((midScatterDims B N D E wf).window (ix3 b e o) 2 : Int)
          ∧ (midScatterDims B N D E wf).start (ix3 b e o) idx 2 + ((midScatterDims B N D E wf).window (ix3 b e o) 2 : Int) < (D : Int)
        rw [h2]; omega
    unfold ScatterDims.resultIdx?
    rw [dif_pos h]
    refine congrArg some (funext fun a => Fin.ext ?_)
    match a with
    | ⟨0, _⟩ =>
      show ((midScatterDims B N D E wf).start (ix3 b e o) idx 0 + ((midScatterDims B N D E wf).window (ix3 b e o) 0 : Int)).toNat = b.val
      rw [h0]; omega
    | ⟨1, _⟩ =>
      show ((midScatterDims B N D E wf).start (ix3 b e o) idx 1 + ((midScatterDims B N D E wf).window (ix3 b e o) 1 : Int)).toNat = n.val
      rw [h1, hr]; omega
    | ⟨2, _⟩ =>
      show ((midScatterDims B N D E wf).start (ix3 b e o) idx 2 + ((midScatterDims B N D E wf).window (ix3 b e o) 2 : Int)).toNat = o.val
      rw [h2]; omega

/-- THE MIDDLE AXIS ACCUMULATED at `(b, n, o)`: the operand there plus the updates `(b, e, o)` of the edges whose
    integer is `n` — the same edges as in the matrix layout. -/
theorem scatterAdd_mid_apply (x : (⟨3, ![B, N, D]⟩ : Shape).Idx → EReal) (upd : (⟨3, ![B, E, D]⟩ : Shape).Idx → EReal)
    (b : Fin B) (n : Fin N) (o : Fin D) :
    Ideal.hostScatterAdd (midScatterDims B N D E wf) x idx upd (ix3 b n o)
      = x (ix3 b n o) + ∑ e ∈ Finset.univ.filter (fun e : Fin E => (idx (ix2 e (0 : Fin 1))).toInt = (n.val : Int)),
          upd (ix3 b e o) := by
  unfold Ideal.hostScatterAdd
  refine congrArg (x (ix3 b n o) + ·) ?_
  have key : ∀ j : (⟨3, ![B, E, D]⟩ : Shape).Idx, (midScatterDims B N D E wf).resultIdx? j idx = some (ix3 b n o) →
      (idx (ix2 (j 1 : Fin E) (0 : Fin 1))).toInt = (n.val : Int) ∧ ix3 b (j 1 : Fin E) o = j := by
    intro j hj
    obtain ⟨b', e, o', rfl⟩ : ∃ (b' : Fin B) (e : Fin E) (o' : Fin D), j = ix3 b' e o' := ⟨j 0, j 1, j 2, eq_ix3 j⟩
    obtain ⟨hr, rfl, rfl⟩ := (midScatter_resultIdx_iff wf idx b' e o' b n o).mp hj
    exact ⟨hr, rfl⟩
  refine Finset.sum_nbij' (fun j => (j 1 : Fin E)) (fun e => ix3 b e o) ?_ ?_ ?_ ?_ ?_
  · intro j hj
    exact Finset.mem_filter.mpr ⟨Finset.mem_univ _, (key j (Finset.mem_filter.mp hj).2).1⟩
  · intro e he
    exact Finset.mem_filter.mpr ⟨Finset.mem_univ _,
      (midScatter_resultIdx_iff wf idx b e o b n o).mpr ⟨(Finset.mem_filter.mp he).2, rfl, rfl⟩⟩
  · intro j hj
    exact (key j (Finset.mem_filter.mp hj).2).2
  · intro e _
    rfl
  · intro j hj
    exact congrArg upd (key j (Finset.mem_filter.mp hj).2).2.symm

end Mid

end Scatter

end Cert.Lib

end
-- ==== Proof.KernelRead.lean ====
/-
  The idealized kernel program's result, read at (b, c, k).

  Row p = 16·b + c of the [128, ·] layout is (b, c) of [8, 16, ·]. At (b, c, k) the result is a quotient: above, the
  kernel's sum at (p, k) — all 176128 of its positions, indicator-weighted — plus zero plus the values at (p, position)
  of the last 272 positions whose word reads k; below, the count of cluster k. The kernel's values at (p, j) are the
  reshaped values at (p, j), and its word of position j is the j-th word.
-/
import proofs.«146630_j21534966022159_2_alg».proof.Proof.KernelRun
import proofs.«146630_j21534966022159_2_alg».proof.Proof.LibEdgeGatherScatter

noncomputable section

namespace Cert.KernelIdeal.Whole

open Idealize.ShloMosaic Idealize.ShloMosaic.ValueIdx Idealize.ShloMosaic.TcCoe Idealize.SL.Sem
open Cert.KernelIdeal Cert.KernelIdeal.Gen Cert.KernelIdeal.Accum Cert.Segment

/-- The row of the [128, ·] layout that (b, c) names. -/
def row (i : S8x16x10000.Idx) : Fin 128 :=
  ⟨(i 0).val * 16 + (i 1).val, by
    have h0 : (i 0).val < 8 := (i 0).isLt
    have h1 : (i 1).val < 16 := (i 1).isLt
    omega⟩

/-- Position j of the kernel's 176128, among all 176400. -/
def firstPos (j : Fin 176128) : Fin 176400 := ⟨j.val, by have := j.isLt; omega⟩

/-- The e-th of the last 272 positions, among all 176400. -/
def lastPos (e : Fin 272) : Fin 176400 := ⟨176128 + e.val, by have := e.isLt; omega⟩

/-- Cluster k among the kernel's 10240 columns. -/
def wide (k : Fin 10000) : Fin 10240 := ⟨k.val, by have := k.isLt; omega⟩

/-- The reshape [128, 10000] → [8, 16, 10000] at (b, c, k): row 16·b + c, column k. -/
theorem reshape_apply (y : S128x10000.Idx → EReal) (i : S8x16x10000.Idx) :
    shapeCast S8x16x10000 y shapeCasts_S128x10000_S8x16x10000 i = y (ix2 (row i) (i 2)) := by
  refine shapeCast_apply y shapeCasts_S128x10000_S8x16x10000 i (ix2 (row i) (i 2)) ?_
  rewrite [Shape.rowMajor_val_two, Shape.rowMajor_val_three]
  rfl

/-- The sums of the last 272 positions at (k, p): zero plus the values at (p, position) of those whose word reads k. -/
theorem lastSums_apply (X0 : S128x176400.Idx → EReal) (A1 : S176400.Idx → BitVec 32) (k : Fin 10000) (p : Fin 128) :
    lastSums X0 A1 (ix2 k p)
      = 0 + ∑ e ∈ Finset.univ.filter (fun e : Fin 272 => (A1 (ix1 (lastPos e))).toInt = (k.val : ℤ)),
          X0 (ix2 p (lastPos e)) := by
  have hidx : ∀ e : Fin 272,
      broadcastInDim S272x1 ![0] bcast_S272_S272x1_0
          (extractStridedSlice S272 ![176128] A1 slices_S176400_S272_176128) (ix2 e (0 : Fin 1))
        = A1 (ix1 (lastPos e)) := fun e =>
    (broadcastInDim_apply _ bcast_S272_S272x1_0 _ (ix2 e (0 : Fin 1)) (ix1 e) (fun a => match a with
      | ⟨0, _⟩ => by show e.val = if (272 : Nat) = 1 then 0 else e.val; rw [if_neg (by decide)])).trans
    (extractStridedSlice_apply _ A1 slices_S176400_S272_176128 (ix1 e) (ix1 (lastPos e)) (fun a => match a with
      | ⟨0, _⟩ => rfl))
  have hupd : ∀ e : Fin 272,
      transpose S272x128 [1, 0] (extractStridedSlice S128x272 ![0, 176128] X0 slices_S128x176400_S128x272_0_176128)
          transposes_S128x272_S272x128_1_0 (ix2 e p)
        = X0 (ix2 p (lastPos e)) := fun e =>
    (transpose_apply [1, 0] _ transposes_S128x272_S272x128_1_0 (ix2 e p) (ix2 p e) (fun b => match b with
      | ⟨0, _⟩ => rfl
      | ⟨1, _⟩ => rfl)).trans
    (extractStridedSlice_apply _ X0 slices_S128x176400_S128x272_0_176128 (ix2 p e) (ix2 p (lastPos e)) (fun a => match a with
      | ⟨0, _⟩ => by show p.val = 0 + p.val; omega
      | ⟨1, _⟩ => rfl))
  unfold lastSums
  refine (Cert.Lib.scatterAdd_rows_apply (N := 10000) (D := 128) (E := 272)
    scatter_S10000x128_S272x1_S272x128_1_0_0_1_wf _ _ _ k p).trans ?_
  refine congrArg₂ (· + ·) ?_ ?_
  · show Ideal.ofBits .f32 0x00000000#32 = 0
    exact Ideal.ofBits_zero_f32
  · exact Finset.sum_congr (Finset.filter_congr fun e _ => by rw [hidx e]) (fun e _ => hupd e)

/-- THE RESULT'S SHAPE at (b, c, k): a sum over the count. -/
theorem finish_apply (S : S128x10240.Idx → EReal) (X0 : S128x176400.Idx → EReal) (A1 : S176400.Idx → BitVec 32)
    (i : S8x16x10000.Idx) :
    finish S X0 A1 i
      = FloatOps.hostDivf (F := Ideal) (φ := .f32)
          (S (ix2 (row i) (wide (i 2)))
            + (0 + ∑ e ∈ Finset.univ.filter (fun e : Fin 272 => (A1 (ix1 (lastPos e))).toInt = ((i 2).val : ℤ)),
                X0 (ix2 (row i) (lastPos e))))
          (counts A1 (ix1 (i 2))) := by
  unfold finish
  refine (reshape_apply _ i).trans ?_
  refine congrArg₂ (FloatOps.hostDivf (F := Ideal) (φ := .f32)) ?_ ?_
  · refine (addf_apply _ _ _).trans (congrArg₂ (· + ·) ?_ ?_)
    · exact extractStridedSlice_apply _ S slices_S128x10240_S128x10000_0_0 (ix2 (row i) (i 2)) (ix2 (row i) (wide (i 2)))
        (fun a => match a with
          | ⟨0, _⟩ => by show (row i).val = 0 + (row i).val; omega
          | ⟨1, _⟩ => by show (i 2).val = 0 + (i 2).val; omega)
    · exact (transpose_apply [1, 0] _ transposes_S10000x128_S128x10000_1_0 (ix2 (row i) (i 2)) (ix2 (i 2) (row i))
        (fun b => match b with
          | ⟨0, _⟩ => rfl
          | ⟨1, _⟩ => rfl)).trans (lastSums_apply X0 A1 (i 2) (row i))
  · exact (broadcastInDim_apply _ bcast_S1x10000_S128x10000_0_1 _ (ix2 (row i) (i 2)) (ix2 (0 : Fin 1) (i 2))
        (fun a => match a with
          | ⟨0, _⟩ => by show 0 = if (1 : Nat) = 1 then 0 else (row i).val; rw [if_pos rfl]
          | ⟨1, _⟩ => by show (i 2).val = if (10000 : Nat) = 1 then 0 else (i 2).val; rw [if_neg (by decide)])).trans
      (broadcastInDim_apply _ bcast_S10000_S1x10000_1 _ (ix2 (0 : Fin 1) (i 2)) (ix1 (i 2))
        (fun a => match a with
          | ⟨0, _⟩ => by show (i 2).val = if (10000 : Nat) = 1 then 0 else (i 2).val; rw [if_neg (by decide)]))

variable (m : (ℓ : Loc nD τ sig) → Buf (Elt Ideal) ℓ)

/-- The kernel's values at (p, j) are the reshaped values at (p, j). -/
theorem main_values_apply (c : Dev nD) (p : Fin 128) (j : Fin 176128) :
    (V m c main_v1 : S128x176128.Idx → EReal) (ix2 p j) = (V m c main_v0 : S128x176400.Idx → EReal) (ix2 p (firstPos j)) := by
  rw [entry_main_values, entry_values]
  exact extractStridedSlice_apply _ _ slices_S128x176400_S128x176128_0_0 (ix2 p j) (ix2 p (firstPos j)) (fun a => match a with
    | ⟨0, _⟩ => by show p.val = 0 + p.val; omega
    | ⟨1, _⟩ => by show j.val = 0 + j.val; omega)

/-- The kernel's word of position j is the j-th word. -/
theorem main_words_apply (c : Dev nD) (j : Fin 176128) :
    (V m c main_v3 : S176128x1.Idx → BitVec 32) (ix2 j (0 : Fin 1))
      = m ((c : Thread nD τ).loc main_arg1) (ix1 (firstPos j)) := by
  rw [entry_main_words]
  refine (shapeCast_apply _ shapeCasts_S176128_S176128x1 (ix2 j (0 : Fin 1)) (ix1 j) ?_).trans ?_
  · rewrite [Shape.rowMajor_val_one, Shape.rowMajor_val_two]
    show j.val = j.val * 1 + 0
    omega
  · exact extractStridedSlice_apply _ _ slices_S176400_S176128_0 (ix1 j) (ix1 (firstPos j)) (fun a => match a with
      | ⟨0, _⟩ => by show j.val = 0 + j.val; omega)

end Cert.KernelIdeal.Whole

end
-- ==== Proof.SegmentSplit.lean ====
/-
  The sum for a cluster over an axis of N = A + B positions, as the kernel and the host share the work: the first A
  positions indicator-weighted (every position added, times 1 or 0), the last B positions selected and added.
  Independent of any program.
-/
import proofs.«146630_j21534966022159_2_alg».proof.Proof.SegmentSum

noncomputable section

namespace Cert.Segment

open Finset

/-- The selected positions among all N are the indicator-weighted first A plus the selected among the last B. -/
theorem sum_split (A B N : ℕ) (hN : A + B = N) (Y : Fin N → EReal) (Mw : Fin N → BitVec 32) (k : ℕ) :
    ∑ e ∈ univ.filter (fun e : Fin N => (Mw e).toInt = (k : ℤ)), Y e
      = ∑ j : Fin A, Y ⟨j.val, by omega⟩ * hit (Mw ⟨j.val, by omega⟩) k
        + ∑ e ∈ univ.filter (fun e : Fin B => (Mw ⟨A + e.val, by omega⟩).toInt = (k : ℤ)), Y ⟨A + e.val, by omega⟩ := by
  subst hN
  rw [sum_filter_split A B Y (fun e => (Mw e).toInt = (k : ℤ)),
    sum_mul_hit (fun j : Fin A => Y ⟨j.val, by omega⟩) (fun j : Fin A => Mw ⟨j.val, by omega⟩) k]
  rfl

end Cert.Segment

end
-- ==== Proof.Bridge.lean ====
/-
  The two programs compute one function.

  The reference, read at (b, c, k): with p = 16·b + c, the quotient of zero plus the values at (p, position) of ALL
  176400 positions whose word reads k, by the count of cluster k — one accumulating scatter over every position.
  The kernel program at (b, c, k): the quotient of the indicator-weighted sum over its first 176128 positions plus
  zero plus the selected values among the last 272, by the same count.
  The two numerators are the same extended real: the selected positions among 176128 + 272 are the selected ones
  among the first, plus those among the last, and an indicator-weighted sum over all positions is the sum over the
  selected ones. Both laws hold for every extended real, so no input need be finite. The counts are literally the same
  operations of the same words.
-/
import proofs.«146630_j21534966022159_2_alg».proof.Proof.KernelRead
import proofs.«146630_j21534966022159_2_alg».proof.Proof.SegmentSplit
import proofs.«146630_j21534966022159_2_alg».proof.Proof.Gen.ReferenceIdeal.Read

noncomputable section

namespace Cert.Bridge

open Idealize.ShloMosaic Idealize.ShloMosaic.ValueIdx Idealize.ShloMosaic.TcCoe Idealize.SL.Sem
open Cert.KernelIdeal (S8x16x420x420 S176400 S8x16x10000 S128x176400)
open Cert.KernelIdeal.Whole Cert.KernelIdeal.Accum Cert.Segment
open Cert.ReferenceIdeal.Read

/-- THE REFERENCE at (b, c, k): zero plus the selected values of row 16·b + c, over the count. -/
theorem reference_apply (x0 : S8x16x420x420.Idx → EReal) (x1 : S176400.Idx → BitVec 32) (i : S8x16x10000.Idx) :
    val_main_v15 (F := Ideal) x0 x1 i
      = FloatOps.hostDivf (F := Ideal) (φ := .f32)
          (0 + ∑ e ∈ Finset.univ.filter (fun e : Fin 176400 => (x1 (ix1 e)).toInt = ((i 2).val : ℤ)),
              val_main_v0 (F := Ideal) x0 (ix2 (row i) e))
          (val_main_v10 (F := Ideal) x1 (ix1 (i 2))) := by
  have h0 : (i 0).val < 8 := (i 0).isLt
  have h1 : (i 1).val < 16 := (i 1).isLt
  have h2 : (i 2).val < 10000 := (i 2).isLt
  have hI : idx_main_v14 (idx_main_v15 i) = ix2 (i 2) (row i) := by
    funext a
    apply Fin.ext
    match a with
    | ⟨0, _⟩ =>
      show (((i 0).val * 16 + (i 1).val) * 10000 + (i 2).val) % 10000 = (i 2).val
      omega
    | ⟨1, _⟩ =>
      show (((i 0).val * 16 + (i 1).val) * 10000 + (i 2).val) / 10000 = (i 0).val * 16 + (i 1).val
      omega
  have hw : ∀ e : Fin 176400, idx_main_v3 (ix2 e (0 : Fin 1)) = ix1 e := fun e =>
    funext fun a => match a with
      | ⟨0, _⟩ => rfl
  have hv : ∀ e : Fin 176400, idx_main_v1 (ix2 e (row i)) = ix2 (row i) e := fun e =>
    funext fun a => match a with
      | ⟨0, _⟩ => rfl
      | ⟨1, _⟩ => rfl
  have hc : idx_main_v11 (idx_main_v12 (ix2 (i 2) (row i))) = ix1 (i 2) :=
    funext fun a => match a with
      | ⟨0, _⟩ => rfl
  rw [val_main_v15_apply, val_main_v14_apply, val_main_v13_apply, hI]
  refine congrArg₂ (FloatOps.hostDivf (F := Ideal) (φ := .f32)) ?_ ?_
  · unfold val_main_v4
    refine (Cert.Lib.scatterAdd_rows_apply (N := 10000) (D := 128) (E := 176400)
      Cert.ReferenceIdeal.Gen.scatter_S10000x128_S176400x1_S176400x128_1_0_0_1_wf _ _ _ (i 2) (row i)).trans ?_
    refine congrArg₂ (· + ·) ?_ ?_
    · rw [val_main_v2_apply, val_main_cst_apply]
      exact Ideal.ofBits_zero_f32
    · exact Finset.sum_congr (Finset.filter_congr fun e _ => by rw [val_main_v3_apply, hw e])
        (fun e _ => by rw [val_main_v1_apply, hv e])
  · exact (val_main_v12_apply (F := Ideal) x1 (ix2 (i 2) (row i))).trans
      ((val_main_v11_apply (F := Ideal) x1 _).trans (congrArg (val_main_v10 (F := Ideal) x1) hc))

/-- The counts are one function of the words. -/
theorem counts_eq (x1 : S176400.Idx → BitVec 32) : counts x1 = val_main_v10 (F := Ideal) x1 := rfl

/-- The reshaped values are one function of the values. -/
theorem values_eq (x0 : S8x16x420x420.Idx → EReal) :
    shapeCast S128x176400 x0 Cert.KernelIdeal.Gen.shapeCasts_S8x16x420x420_S128x176400 = val_main_v0 (F := Ideal) x0 := rfl

/-- THE NUMERATORS are one extended real. -/
theorem numerator_eq (X : Cert.KernelIdeal.S128x176128.Idx → EReal) (W : Cert.KernelIdeal.S176128x1.Idx → BitVec 32)
    (X0 : S128x176400.Idx → EReal) (x1 : S176400.Idx → BitVec 32)
    (hX : ∀ (p : Fin 128) (j : Fin 176128), X (ix2 p j) = X0 (ix2 p (firstPos j)))
    (hW : ∀ j : Fin 176128, W (ix2 j (0 : Fin 1)) = x1 (ix1 (firstPos j)))
    (p : Fin 128) (k : Fin 10000) :
    total X W (ix2 p (wide k))
        + (0 + ∑ e ∈ Finset.univ.filter (fun e : Fin 272 => (x1 (ix1 (lastPos e))).toInt = (k.val : ℤ)), X0 (ix2 p (lastPos e)))
      = 0 + ∑ e ∈ Finset.univ.filter (fun e : Fin 176400 => (x1 (ix1 e)).toInt = (k.val : ℤ)), X0 (ix2 p e) := by
  rw [zero_add, zero_add, total_apply,
    sum_split 176128 272 176400 (by norm_num) (fun e => X0 (ix2 p e)) (fun e => x1 (ix1 e)) k.val]
  refine congrArg₂ (· + ·) (Finset.sum_congr rfl fun j _ => ?_) rfl
  unfold term
  rw [hX p j, hW j]
  rfl

/-- THE TWO RESULTS are one array. -/
theorem result_eq (m : (ℓ : Loc Cert.KernelIdeal.nD Cert.KernelIdeal.τ Cert.KernelIdeal.sig) → Buf (Elt Ideal) ℓ)
    (c : Dev Cert.KernelIdeal.nD) :
    Cert.KernelIdeal.Whole.result m c
      = val_main_v15 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
  funext i
  have hV0 : (Cert.KernelIdeal.Gen.V m c Cert.KernelIdeal.main_v0 : S128x176400.Idx → EReal)
      = val_main_v0 (F := Ideal) (m ((c.tc : Thread Cert.KernelIdeal.nD Cert.KernelIdeal.τ).loc Cert.KernelIdeal.main_arg0)) :=
    (entry_values m c).trans (values_eq _)
  refine (finish_apply _ _ _ i).trans ?_
  refine Eq.trans ?_ (reference_apply _ _ i).symm
  refine congrArg₂ (FloatOps.hostDivf (F := Ideal) (φ := .f32)) ?_ (congrFun (counts_eq _) _)
  refine (numerator_eq (Cert.KernelIdeal.Gen.V m c Cert.KernelIdeal.main_v1) (Cert.KernelIdeal.Gen.V m c Cert.KernelIdeal.main_v3)
    (Cert.KernelIdeal.Gen.V m c Cert.KernelIdeal.main_v0)
    (m ((c.tc : Thread Cert.KernelIdeal.nD Cert.KernelIdeal.τ).loc Cert.KernelIdeal.main_arg1))
    (main_values_apply m c) (main_words_apply m c) (row i) (i 2)).trans ?_
  exact congrArg (fun f : S128x176400.Idx → EReal => (0 : EReal) + ∑ e ∈ Finset.univ.filter
    (fun e : Fin 176400 => ((m ((c.tc : Thread Cert.KernelIdeal.nD Cert.KernelIdeal.τ).loc Cert.KernelIdeal.main_arg1)) (ix1 e)).toInt
      = ((i 2).val : ℤ)), f (ix2 (row i) e)) hV0

end Cert.Bridge

end
-- ==== Proof.lean ====
/-
  A segmented mean: for each of 10000 clusters, the mean over the positions of a 420 × 420 grid that carry that
  cluster's number, of each of 8 × 16 = 128 fields.

  THE KERNEL PROGRAM adds up, for cluster k and field p, the values at the positions carrying k in three stretches:
  the first 344 · 512 = 176128 positions go through a matrix product of a tile of values with a 0/1 table (1 where the
  position's cluster word equals k), accumulated tile by tile in a block that is zeroed on the first tile and written
  back after the last; the remaining 272 positions go through an accumulating scatter on the host; the two are added.
  THE REFERENCE adds them in one accumulating scatter over all 176400 positions. Both then divide by the same count
  (an accumulating scatter of ones, at least 1).

  Over the extended reals the two sums are equal for every input: x · 0 = 0 and x · 1 = x hold at the infinities too,
  and reordering and regrouping a sum needs only that addition is commutative and associative. A position whose word
  is negative or ≥ 10000 contributes to no cluster on either side (the scatter drops it; the table has no 1 for it, or
  has it in a column that is cut away). So the finiteness of the inputs is never used.

  The modules: SegmentSum, SegmentSplit (the sums, no program); KernelBody, KernelCases (one run of the kernel's body);
  KernelAccum (every grid point, by induction); KernelArray (the kernel's array); KernelRun (the whole kernel program);
  KernelRead (its result at an index); Bridge (the reference at an index; the two are one function).
  The frames of the two kernel programs and the reference's run are the generated modules'.
-/
import proofs.«146630_j21534966022159_2_alg».proof.Defs
import proofs.«146630_j21534966022159_2_alg».proof.Proof.Gen.Kernel
import proofs.«146630_j21534966022159_2_alg».proof.Proof.Gen.Kernel.Skeleton
import proofs.«146630_j21534966022159_2_alg».proof.Proof.Gen.Kernel.Launch
import proofs.«146630_j21534966022159_2_alg».proof.Proof.Gen.Kernel.Points
import proofs.«146630_j21534966022159_2_alg».proof.Proof.Gen.Kernel.Frame
import proofs.«146630_j21534966022159_2_alg».proof.Proof.Gen.KernelIdeal
import proofs.«146630_j21534966022159_2_alg».proof.Proof.Gen.KernelIdeal.Skeleton
import proofs.«146630_j21534966022159_2_alg».proof.Proof.Gen.KernelIdeal.Launch
import proofs.«146630_j21534966022159_2_alg».proof.Proof.Gen.KernelIdeal.Points
import proofs.«146630_j21534966022159_2_alg».proof.Proof.Gen.KernelIdeal.Frame
import proofs.«146630_j21534966022159_2_alg».proof.Proof.Gen.ReferenceIdeal
import proofs.«146630_j21534966022159_2_alg».proof.Proof.Gen.Pre_finite_inputs
import proofs.«146630_j21534966022159_2_alg».proof.Proof.Gen.ReferenceIdeal.Run
import proofs.«146630_j21534966022159_2_alg».proof.Proof.Gen.ReferenceIdeal.Read
import proofs.«146630_j21534966022159_2_alg».proof.Proof.Bridge
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the segmented means. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, (hagree c).1, (hagree c).2]
  exact (Cert.Bridge.result_eq m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
